-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x400000 : Shape := ⟨2, ![2, 400000]⟩
abbrev S50000x128 : Shape := ⟨2, ![50000, 128]⟩
abbrev S50000x64 : Shape := ⟨2, ![50000, 64]⟩
abbrev S192x512 : Shape := ⟨2, ![192, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x512 : S_.BroadcastsInDim S192x512 (![] : Fin 0 → Fin S192x512.rank)
  reducesTo_S192x512_S_d0_1 : S192x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S512x2 .f32) (main_arg6 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2 .f32 := Host.absf main_arg5
  let main_cst_6 : FVec F S_ .f32 := constant S_ .f32 0x7F800000#32
  let main_v20 : FVec F S512x2 .f32 := broadcastInDim S512x2 ![] bcast_S_S512x2 main_cst_6
  let main_v21 : IVec S512x2 1 := cmpf .olt main_v19 main_v20
  let main_c_7 : IVec S_ 1 := constantI S_ 1 1#1
  let main_v22 : IVec S_ 1 := (fun x v => Host.reduce IntOp.andi x v reducesTo_S512x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : IVec S2x400000 32) (main_arg1 : FVec F S50000x128 .f32) (main_arg2 : FVec F S50000x64 .f32) (main_arg3 : FVec F S192x512 .f32) (main_arg4 : FVec F S512 .f32) (main_arg5 : FVec F S512x2 .f32) (main_arg6 : FVec F S2 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S192x512 .f32 := Host.absf main_arg3
  let main_cst_2 : FVec F S_ .f32 := constant S_ .f32 0x7F800000#32
  let main_v10 : FVec F S192x512 .f32 := broadcastInDim S192x512 ![] bcast_S_S192x512 main_cst_2
  let main_v11 : IVec S192x512 1 := cmpf .olt main_v9 main_v10
  let main_c_3 : IVec S_ 1 := constantI S_ 1 1#1
  let main_v12 : IVec S_ 1 := (fun x v => Host.reduce IntOp.andi x v reducesTo_S192x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S2x400000 : Shape := ⟨2, ![2, 400000]⟩
abbrev S50000x128 : Shape := ⟨2, ![50000, 128]⟩
abbrev S50000x64 : Shape := ⟨2, ![50000, 64]⟩
abbrev S192x512 : Shape := ⟨2, ![192, 512]⟩
abbrev S512 : Shape := ⟨1, ![512]⟩
abbrev S512x2 : Shape := ⟨2, ![512, 2]⟩
abbrev S2 : Shape := ⟨1, ![2]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S64x512 : Shape := ⟨2, ![64, 512]⟩
abbrev S128x512 : Shape := ⟨2, ![128, 512]⟩
abbrev S50000x512 : Shape := ⟨2, ![50000, 512]⟩
abbrev S5000x64 : Shape := ⟨2, ![5000, 64]⟩
abbrev S5000x128 : Shape := ⟨2, ![5000, 128]⟩
abbrev S5000x512 : Shape := ⟨2, ![5000, 512]⟩
abbrev S450000x512 : Shape := ⟨2, ![450000, 512]⟩
abbrev S1x512 : Shape := ⟨2, ![1, 512]⟩
abbrev S50000x2 : Shape := ⟨2, ![50000, 2]⟩
abbrev S5000x2 : Shape := ⟨2, ![5000, 2]⟩
abbrev S450000x2 : Shape := ⟨2, ![450000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 86
  | .vmem => 19
  | .smem => 0
  | _ => 0

abbrev bufTy : (tb : Table) → Fin (tcTables nBuf tb) → BufTy
  | .hbm, ⟨0, _⟩ => ⟨S2x400000, .i32⟩
  | .hbm, ⟨1, _⟩ => ⟨S50000x128, .f32⟩
  | .hbm, ⟨2, _⟩ => ⟨S50000x64, .f32⟩
  | .hbm, ⟨3, _⟩ => ⟨S192x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S50000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S1x400000, .i32⟩
  | .hbm, ⟨12, _⟩ => ⟨S400000, .i32⟩
  | .hbm, ⟨13, _⟩ => ⟨S450000, .i32⟩
  | .hbm, ⟨14, _⟩ => ⟨S_, .f32⟩
  | .hbm, ⟨15, _⟩ => ⟨S450000, .f32⟩
  | .hbm, ⟨16, _⟩ => ⟨S_, .f32⟩
  | .hbm, ⟨17, _⟩ => ⟨S50000, .f32⟩
  | .hbm, ⟨18, _⟩ => ⟨S450000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S450000, .i32⟩
  | .hbm, ⟨30, _⟩ => ⟨S450000, .i1⟩
  | .hbm, ⟨31, _⟩ => ⟨S_, .i32⟩
  | .hbm, ⟨32, _⟩ => ⟨S450000, .i32⟩
  | .hbm, ⟨33, _⟩ => ⟨S450000, .i32⟩
  | .hbm, ⟨34, _⟩ => ⟨S450000, .i32⟩
  | .hbm, ⟨35, _⟩ => ⟨S450000x1, .i32⟩
  | .hbm, ⟨36, _⟩ => ⟨S450000, .f32⟩
  | .hbm, ⟨37, _⟩ => ⟨S_, .i32⟩
  | .hbm, ⟨38, _⟩ => ⟨S450000, .i32⟩
  | .hbm, ⟨39, _⟩ => ⟨S450000, .i1⟩
  | .hbm, ⟨40, _⟩ => ⟨S_, .i32⟩
  | .hbm, ⟨41, _⟩ => ⟨S450000, .i32⟩
  | .hbm, ⟨42, _⟩ => ⟨S450000, .i32⟩
  | .hbm, ⟨43, _⟩ => ⟨S450000, .i32⟩
  | .hbm, ⟨44, _⟩ => ⟨S450000x1, .i32⟩
  | .hbm, ⟨45, _⟩ => ⟨S450000, .f32⟩
  | .hbm, ⟨46, _⟩ => ⟨S450000, .f32⟩
  | .hbm, ⟨47, _⟩ => ⟨S64x512, .f32⟩
  | .hbm, ⟨48, _⟩ => ⟨S128x512, .f32⟩
  | .hbm, ⟨49, _⟩ => ⟨S50000x512, .f32⟩
  | .hbm, ⟨50, _⟩ => ⟨S450000x1, .f32⟩
  | .hbm, ⟨51, _⟩ => ⟨S_, .i32⟩
  | .hbm, ⟨52, _⟩ => ⟨S450000, .i32⟩
  | .hbm, ⟨53, _⟩ => ⟨S450000, .i1⟩
  | .hbm, ⟨54, _⟩ => ⟨S_, .i32⟩
  | .hbm, ⟨55, _⟩ => ⟨S450000, .i32⟩
  | .hbm, ⟨56, _⟩ => ⟨S450000, .i32⟩
  | .hbm, ⟨57, _⟩ => ⟨S450000, .i32⟩
  | .hbm, ⟨58, _⟩ => ⟨S450000x1, .i32⟩
  | .hbm, ⟨59, _⟩ => ⟨S450000x512, .f32⟩
  | .hbm, ⟨60, _⟩ => ⟨S450000x512, .f32⟩
  | .hbm, ⟨61, _⟩ => ⟨S450000x512, .f32⟩
  | .hbm, ⟨62, _⟩ => ⟨S_, .f32⟩
  | .hbm, ⟨63, _⟩ => ⟨S50000x512, .f32⟩
  | .hbm, ⟨64, _⟩ => ⟨S450000x1, .i32⟩
  | .hbm, ⟨65, _⟩ => ⟨S50000x512, .f32⟩
  | .hbm, ⟨66, _⟩ => ⟨S1x512, .f32⟩
  | .hbm, ⟨67, _⟩ => ⟨S50000x2, .f32⟩
  | .hbm, ⟨68, _⟩ => ⟨S450000x1, .f32⟩
  | .hbm, ⟨69, _⟩ => ⟨S_, .i32⟩
  | .hbm, ⟨70, _⟩ => ⟨S450000, .i32⟩
  | .hbm, ⟨71, _⟩ => ⟨S450000, .i1⟩
  | .hbm, ⟨72, _⟩ => ⟨S_, .i32⟩
  | .hbm, ⟨73, _⟩ => ⟨S450000, .i32⟩
  | .hbm, ⟨74, _⟩ => ⟨S450000, .i32⟩
  | .hbm, ⟨75, _⟩ => ⟨S450000, .i32⟩
  | .hbm, ⟨76, _⟩ => ⟨S450000x1, .i32⟩
  | .hbm, ⟨77, _⟩ => ⟨S450000x2, .f32⟩
  | .hbm, ⟨78, _⟩ => ⟨S450000x2, .f32⟩
  | .hbm, ⟨79, _⟩ => ⟨S450000x2, .f32⟩
  | .hbm, ⟨80, _⟩ => ⟨S_, .f32⟩
  | .hbm, ⟨81, _⟩ => ⟨S50000x2, .f32⟩
  | .hbm, ⟨82, _⟩ => ⟨S450000x1, .i32⟩
  | .hbm, ⟨83, _⟩ => ⟨S50000x2, .f32⟩
  | .hbm, ⟨84, _⟩ => ⟨S1x2, .f32⟩
  | .hbm, ⟨85, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x128, .f32⟩
  | .local _ .vmem, ⟨3, _⟩ => ⟨S5000x128, .f32⟩
  | .local _ .vmem, ⟨4, _⟩ => ⟨S64x512, .f32⟩
  | .local _ .vmem, ⟨5, _⟩ => ⟨S128x512, .f32⟩
  | .local _ .vmem, ⟨6, _⟩ => ⟨S5000x512, .f32⟩
  | .local _ .vmem, ⟨7, _⟩ => ⟨S5000x512, .f32⟩
  | .local _ .vmem, ⟨8, _⟩ => ⟨S5000x512, .f32⟩
  | .local _ .vmem, ⟨9, _⟩ => ⟨S5000x512, .f32⟩
  | .local _ .vmem, ⟨10, _⟩ => ⟨S1x512, .f32⟩
  | .local _ .vmem, ⟨11, _⟩ => ⟨S512x2, .f32⟩
  | .local _ .vmem, ⟨12, _⟩ => ⟨S5000x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S1x2, .f32⟩
  | .local _ .vmem, ⟨17, _⟩ => ⟨S5000x2, .f32⟩
  | .local _ .vmem, ⟨18, _⟩ => ⟨S5000x2, .f32⟩
  | _, _ => ⟨S2x400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  slices_S192x512_S64x512_0_0 : S192x512.Slices ![0, 0] S64x512
  slices_S192x512_S128x512_64_0 : S192x512.Slices ![64, 0] S128x512
  inb_S5000x64_S5000x64_0_0 : ∀ a, (![0, 0] : Fin 2 → Nat) a + S5000x64.size a ≤ S5000x64.size a
  h_S5000x64 : 0 < S5000x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S5000x128_S5000x128_0_0 : ∀ a, (![0, 0] : Fin 2 → Nat) a + S5000x128.size a ≤ S5000x128.size a
  h_S5000x128 : 0 < S5000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  shapeCasts_S512_S1x512 : S512.ShapeCasts S1x512
  shapeCasts_S5000x512_S5000x512 : S5000x512.ShapeCasts S5000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S512x2_S512x2_0_0 : ∀ a, (![0, 0] : Fin 2 → Nat) a + S512x2.size a ≤ S512x2.size a
  h_S512x2 : 0 < S512x2.numel
  inb_S5000x2_S5000x2_0_0 : ∀ a, (![0, 0] : Fin 2 → Nat) a + S5000x2.size a ≤ S5000x2.size a
  h_S5000x2 : 0 < S5000x2.numel
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S5000x64_S64x512_S5000x512_1_0_0_1_n_n_wf : DotDims.WF S5000x64 S64x512 S5000x512 [1] [0] [0] [1] [] []
  dot_S5000x128_S128x512_S5000x512_1_0_0_1_n_n_wf : DotDims.WF S5000x128 S128x512 S5000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S5000x512_S512x2_S5000x2_1_0_0_1_n_n_wf : DotDims.WF S5000x512 S512x2 S5000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x512.size a ≤ S50000x512.size a
  hwx0_4 : ∀ i : grid0.Coords, EltTy.bits .f32 = 32 ∨ (Rect.block (s := S50000x512) S5000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2.size a ≤ S512x2.size a
  hwx1_2 : ∀ i : grid1.Coords, EltTy.bits .f32 = 32 ∨ (Rect.block (s := S512x2) S512x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S50000x2.size a
  hwx1_3 : ∀ i : grid1.Coords, EltTy.bits .f32 = 32 ∨ (Rect.block (s := S50000x2) S5000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S50000x2.size a
  hwx2_0 : ∀ i : grid2.Coords, EltTy.bits .f32 = 32 ∨ (Rect.block (s := S50000x2) S5000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S5000x512_S512x2_S5000x2_1_0_0_1_n_n : DotDims S5000x512 S512x2 S5000x2 where
  lhsContracting := [1]
  rhsContracting := [0]
  lhsNonContracting := [0]
  rhsNonContracting := [1]
  lhsBatch := []
  rhsBatch := []
  wf := dot_S5000x512_S512x2_S5000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x400000 : Shape := ⟨2, ![2, 400000]⟩
abbrev S50000x128 : Shape := ⟨2, ![50000, 128]⟩
abbrev S50000x64 : Shape := ⟨2, ![50000, 64]⟩
abbrev S192x512 : Shape := ⟨2, ![192, 512]⟩
abbrev S512 : Shape := ⟨1, ![512]⟩
abbrev S512x2 : Shape := ⟨2, ![512, 2]⟩
abbrev S2 : Shape := ⟨1, ![2]⟩
abbrev S50000x192 : Shape := ⟨2, ![50000, 192]⟩
abbrev S50000x512 : Shape := ⟨2, ![50000, 512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S50000x2 : Shape := ⟨2, ![50000, 2]⟩
abbrev S450000x2 : Shape := ⟨2, ![450000, 2]⟩
abbrev S1x2 : Shape := ⟨2, ![1, 2]⟩
abbrev S50000x1 : Shape := ⟨2, ![50000, 1]⟩

abbrev nBuf : Space → Nat
  | .hbm => 145
  | .vmem => 0
  | .smem => 0
  | _ => 0

abbrev hbmTy0_0 (i : Nat) : BufTy := match i % 128 with
  | 0 => ⟨S2x400000, .i32⟩
  | 1 => ⟨S50000x128, .f32⟩
  | 2 => ⟨S50000x64, .f32⟩
  | 3 => ⟨S192x512, .f32⟩
  | 4 => ⟨S512, .f32⟩
  | 5 => ⟨S512x2, .f32⟩
  | 6 => ⟨S2, .f32⟩
  | 7 => ⟨S50000x192, .f32⟩
  | 8 => ⟨S50000x512, .f32⟩
  | 9 => ⟨S50000, .i32⟩
  | 10 => ⟨S1x400000, .i32⟩
  | 11 => ⟨S400000, .i32⟩
  | 12 => ⟨S450000, .i32⟩
  | 13 => ⟨S1x400000, .i32⟩
  | 14 => ⟨S400000, .i32⟩
  | 15 => ⟨S450000, .i32⟩
  | 16 => ⟨S_, .f32⟩
  | 17 => ⟨S450000, .f32⟩
  | 18 => ⟨S_, .f32⟩
  | 19 => ⟨S50000, .f32⟩
  | 20 => ⟨S450000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S450000, .i32⟩
  | 32 => ⟨S450000, .i1⟩
  | 33 => ⟨S_, .i32⟩
  | 34 => ⟨S450000, .i32⟩
  | 35 => ⟨S450000, .i32⟩
  | 36 => ⟨S450000, .i32⟩
  | 37 => ⟨S450000x1, .i32⟩
  | 38 => ⟨S450000, .f32⟩
  | 39 => ⟨S_, .i32⟩
  | 40 => ⟨S450000, .i32⟩
  | 41 => ⟨S450000, .i1⟩
  | 42 => ⟨S_, .i32⟩
  | 43 => ⟨S450000, .i32⟩
  | 44 => ⟨S450000, .i32⟩
  | 45 => ⟨S450000, .i32⟩
  | 46 => ⟨S450000x1, .i32⟩
  | 47 => ⟨S450000, .f32⟩
  | 48 => ⟨S450000, .f32⟩
  | 49 => ⟨S450000x1, .f32⟩
  | 50 => ⟨S_, .i32⟩
  | 51 => ⟨S450000, .i32⟩
  | 52 => ⟨S450000, .i1⟩
  | 53 => ⟨S_, .i32⟩
  | 54 => ⟨S450000, .i32⟩
  | 55 => ⟨S450000, .i32⟩
  | 56 => ⟨S450000, .i32⟩
  | 57 => ⟨S450000x1, .i32⟩
  | 58 => ⟨S450000x512, .f32⟩
  | 59 => ⟨S450000x512, .f32⟩
  | 60 => ⟨S450000x512, .f32⟩
  | 61 => ⟨S_, .f32⟩
  | 62 => ⟨S50000x512, .f32⟩
  | 63 => ⟨S450000x1, .i32⟩
  | 64 => ⟨S50000x512, .f32⟩
  | 65 => ⟨S1x512, .f32⟩
  | 66 => ⟨S50000x512, .f32⟩
  | 67 => ⟨S50000x512, .f32⟩
  | 68 => ⟨S_, .f32⟩
  | 69 => ⟨S50000x512, .f32⟩
  | 70 => ⟨S50000x512, .f32⟩
  | 71 => ⟨S50000x2, .f32⟩
  | 72 => ⟨S50000, .i32⟩
  | 73 => ⟨S1x400000, .i32⟩
  | 74 => ⟨S400000, .i32⟩
  | 75 => ⟨S450000, .i32⟩
  | 76 => ⟨S1x400000, .i32⟩
  | 77 => ⟨S400000, .i32⟩
  | 78 => ⟨S450000, .i32⟩
  | 79 => ⟨S_, .f32⟩
  | 80 => ⟨S450000, .f32⟩
  | 81 => ⟨S_, .f32⟩
  | 82 => ⟨S50000, .f32⟩
  | 83 => ⟨S450000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S450000, .i32⟩
  | 95 => ⟨S450000, .i1⟩
  | 96 => ⟨S_, .i32⟩
  | 97 => ⟨S450000, .i32⟩
  | 98 => ⟨S450000, .i32⟩
  | 99 => ⟨S450000, .i32⟩
  | 100 => ⟨S450000x1, .i32⟩
  | 101 => ⟨S450000, .f32⟩
  | 102 => ⟨S_, .i32⟩
  | 103 => ⟨S450000, .i32⟩
  | 104 => ⟨S450000, .i1⟩
  | 105 => ⟨S_, .i32⟩
  | 106 => ⟨S450000, .i32⟩
  | 107 => ⟨S450000, .i32⟩
  | 108 => ⟨S450000, .i32⟩
  | 109 => ⟨S450000x1, .i32⟩
  | 110 => ⟨S450000, .f32⟩
  | 111 => ⟨S450000, .f32⟩
  | 112 => ⟨S450000x1, .f32⟩
  | 113 => ⟨S_, .i32⟩
  | 114 => ⟨S450000, .i32⟩
  | 115 => ⟨S450000, .i1⟩
  | 116 => ⟨S_, .i32⟩
  | 117 => ⟨S450000, .i32⟩
  | 118 => ⟨S450000, .i32⟩
  | 119 => ⟨S450000, .i32⟩
  | 120 => ⟨S450000x1, .i32⟩
  | 121 => ⟨S450000x2, .f32⟩
  | 122 => ⟨S450000x2, .f32⟩
  | 123 => ⟨S450000x2, .f32⟩
  | 124 => ⟨S_, .f32⟩
  | 125 => ⟨S50000x2, .f32⟩
  | 126 => ⟨S450000x1, .i32⟩
  | 127 => ⟨S50000x2, .f32⟩
  | _ => ⟨S2x400000, .i32⟩

abbrev hbmTy0_1 (i : Nat) : BufTy := match i % 128 with
  | 0 => ⟨S1x2, .f32⟩
  | 1 => ⟨S50000x2, .f32⟩
  | 2 => ⟨S50000x2, .f32⟩
  | 3 => ⟨S_, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x2, .f32⟩
  | 10 => ⟨S50000x2, .f32⟩
  | 11 => ⟨S50000x2, .f32⟩
  | 12 => ⟨S_, .f32⟩
  | 13 => ⟨S50000, .f32⟩
  | 14 => ⟨S50000x1, .f32⟩
  | 15 => ⟨S50000x2, .f32⟩
  | 16 => ⟨S50000x2, .f32⟩
  | _ => ⟨S2x400000, .i32⟩

abbrev hbmTy (i : Nat) : BufTy := match i / 128 with
  | 0 => hbmTy0_0 i
  | 1 => hbmTy0_1 i
  | _ => ⟨S2x400000, .i32⟩

abbrev bufTy : (tb : Table) → Fin (tcTables nBuf tb) → BufTy
  | .hbm, ⟨i, _⟩ => hbmTy i
  | _, _ => ⟨S2x400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]

class Facts₀ : Prop where
  concatenates_S50000x64_S50000x128_S50000x192_d1 : Shape.Concatenates [S50000x64, S50000x128] S50000x192 1
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x192_S192x512_S50000x512_1_0_0_1_n_n_wf : DotDims.WF S50000x192 S192x512 S50000x512 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x2_S50000x2_1_0_0_1_n_n_wf : DotDims.WF S50000x512 S512x2 S50000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1

variable [Facts₀]

def dot_S50000x192_S192x512_S50000x512_1_0_0_1_n_n : DotDims S50000x192 S192x512 S50000x512 where
  lhsContracting := [1]
  rhsContracting := [0]
  lhsNonContracting := [0]
  rhsNonContracting := [1]
  lhsBatch := []
  rhsBatch := []
  wf := dot_S50000x192_S192x512_S50000x512_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x2_S50000x2_1_0_0_1_n_n : DotDims S50000x512 S512x2 S50000x2 where
  lhsContracting := [1]
  rhsContracting := [0]
  lhsNonContracting := [0]
  rhsNonContracting := [1]
  lhsBatch := []
  rhsBatch := []
  wf := dot_S50000x512_S512x2_S50000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf

class Facts : Prop extends Facts₀ where

variable [Facts]
-- ==== Proof.KerRun.lean ====
/-
  The idealized kernel program's run with its RESULT ARRAY named. The program is three pipelined regions among four
  stretches of host operations; at the return every unscoped buffer of a core holds the last boundary's contents, the
  fold of the stretches' operations and the regions' write-backs from the launch memory. Read at the result buffer this is
  what the third region (the row softmax) leaves in its output array; read at an argument it is the launch contents.
-/
import proofs.«134711_j5583457485496_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and the seven argument arrays hold what they held at the launch. -/
theorem run_named : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.HostSpec.lean ====
/-
  The host-side vocabulary of the two-layer graph convolution, stated once for both programs and at any float instance.
  An edge list `x0` (two rows of 400000 node numbers) is extended by one self-loop per node: `srcIdx` and `dstIdx` are the
  450000 source and target node numbers. A node's degree is the number of edges that end in it (a scatter-add of ones),
  `invSqrtDeg` is its inverse square root where the degree is positive and zero elsewhere, and an edge's weight is the
  product of that quantity at its two ends. One aggregation step gathers the rows of a node table at the edges' sources,
  scales each by the edge's weight and adds it into the row of the edge's target. The network is
    softmax over each row of  A (relu (A (concat(u, X) · W1) + b1) · W2) + b2 ,
  A the aggregation step. Every function below is the composition of host operations that both programs apply; only the
  two dense products and the softmax are computed differently by the kernel, and they are compared elsewhere.
-/
import proofs.«134711_j5583457485496_2_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The edges' source nodes followed by every node once (the self-loops). -/
def srcIdx (x0 : (⟨S2x400000, .i32⟩ : BufTy).Contents (Elt F)) : (⟨S450000, .i32⟩ : BufTy).Contents (Elt F) :=
  (concatenate S450000 0 [⟨S400000, (shapeCast _ (extractStridedSlice S1x400000 ![0, 0] x0 slices_S2x400000_S1x400000_0_0) shapeCasts_S1x400000_S400000)⟩, ⟨S50000, (iotaInDim S50000 32 0)⟩] concatenates_S400000_S50000_S450000_d0)

/-- The edges' target nodes followed by every node once. -/
def dstIdx (x0 : (⟨S2x400000, .i32⟩ : BufTy).Contents (Elt F)) : (⟨S450000, .i32⟩ : BufTy).Contents (Elt F) :=
  (concatenate S450000 0 [⟨S400000, (shapeCast _ (extractStridedSlice S1x400000 ![1, 0] x0 slices_S2x400000_S1x400000_1_0) shapeCasts_S1x400000_S400000)⟩, ⟨S50000, (iotaInDim S50000 32 0)⟩] concatenates_S400000_S50000_S450000_d0)

/-- A node number read the way jnp indexing reads it (a negative number counts from the end), as a one-column index table. -/
def wrapIdx (v : (⟨S450000, .i32⟩ : BufTy).Contents (Elt F)) : (⟨S450000x1, .i32⟩ : BufTy).Contents (Elt F) :=
  broadcastInDim S450000x1 ![0] bcast_S450000_S450000x1_0 (select (cmpi .slt v (broadcastInDim S450000 ![] bcast_S_S450000 (constantI S_ 32 0#32))) (addi v (broadcastInDim S450000 ![] bcast_S_S450000 (constantI S_ 32 50000#32))) v)

/-- The number of edges that end in each node, self-loop included. -/
def degree (x0 : (⟨S2x400000, .i32⟩ : BufTy).Contents (Elt F)) : (⟨S50000, .f32⟩ : BufTy).Contents (Elt F) :=
  Host.scatterAdd scatter_S50000_S450000x1_S450000_n_0_0_1 (broadcastInDim S50000 ![] bcast_S_S50000 (constant S_ .f32 0x00000000#32)) (broadcastInDim S450000x1 ![0] bcast_S450000_S450000x1_0 (dstIdx x0)) (broadcastInDim S450000 ![] bcast_S_S450000 (constant S_ .f32 0x3F800000#32))

/-- deg^(-1/2) where the degree is positive, zero elsewhere. -/
def invSqrtDeg (x0 : (⟨S2x400000, .i32⟩ : BufTy).Contents (Elt F)) : (⟨S50000, .f32⟩ : BufTy).Contents (Elt F) :=
  select (cmpf (F := F) .ogt (degree (F := F) x0) (broadcastInDim S50000 ![] bcast_S_S50000 (constant S_ .f32 0x00000000#32))) (Host.rsqrt (degree (F := F) x0)) (broadcastInDim S50000 ![] bcast_S_S50000 (id (constant S_ .f32 0x00000000#32)))

/-- An edge's weight: deg^(-1/2) at its source times deg^(-1/2) at its target. -/
def edgeWeight (x0 : (⟨S2x400000, .i32⟩ : BufTy).Contents (Elt F)) : (⟨S450000, .f32⟩ : BufTy).Contents (Elt F) :=
  mulf (Host.gather gather_S50000_S450000x1_S450000_n_0_n_n_0_1_1 (invSqrtDeg (F := F) x0) (wrapIdx (F := F) (srcIdx x0))) (Host.gather gather_S50000_S450000x1_S450000_n_0_n_n_0_1_1 (invSqrtDeg (F := F) x0) (wrapIdx (F := F) (dstIdx x0)))

/-- One aggregation step on a table of 512 features per node: row `n` of the result is the sum, over the edges that end
    in `n`, of the edge's weight times the source node's row. -/
def aggregate512 (x0 : (⟨S2x400000, .i32⟩ : BufTy).Contents (Elt F)) (d : (⟨S50000x512, .f32⟩ : BufTy).Contents (Elt F)) : (⟨S50000x512, .f32⟩ : BufTy).Contents (Elt F) :=
  Host.scatterAdd scatter_S50000x512_S450000x1_S450000x512_1_0_0_1 (broadcastInDim S50000x512 ![] bcast_S_S50000x512 (constant S_ .f32 0x00000000#32)) (broadcastInDim S450000x1 ![0] bcast_S450000_S450000x1_0 (dstIdx x0)) (mulf (broadcastInDim S450000x512 ![0, 1] bcast_S450000x1_S450000x512_0_1 (broadcastInDim S450000x1 ![0] bcast_S450000_S450000x1_0 (edgeWeight (F := F) x0))) (Host.gather gather_S50000x512_S450000x1_S450000x512_1_0_n_n_0_1_1512 d (wrapIdx (F := F) (srcIdx x0))))

/-- The same step on a table of 2 features per node. -/
def aggregate2 (x0 : (⟨S2x400000, .i32⟩ : BufTy).Contents (Elt F)) (d : (⟨S50000x2, .f32⟩ : BufTy).Contents (Elt F)) : (⟨S50000x2, .f32⟩ : BufTy).Contents (Elt F) :=
  Host.scatterAdd scatter_S50000x2_S450000x1_S450000x2_1_0_0_1 (broadcastInDim S50000x2 ![] bcast_S_S50000x2 (constant S_ .f32 0x00000000#32)) (broadcastInDim S450000x1 ![0] bcast_S450000_S450000x1_0 (dstIdx x0)) (mulf (broadcastInDim S450000x2 ![0, 1] bcast_S450000x1_S450000x2_0_1 (broadcastInDim S450000x1 ![0] bcast_S450000_S450000x1_0 (edgeWeight (F := F) x0))) (Host.gather gather_S50000x2_S450000x1_S450000x2_1_0_n_n_0_1_12 d (wrapIdx (F := F) (srcIdx x0))))

/-- The first dense product as the reference computes it: the two feature tables joined side by side, times W1. -/
def dense1 (x1 : (⟨S50000x128, .f32⟩ : BufTy).Contents (Elt F)) (x2 : (⟨S50000x64, .f32⟩ : BufTy).Contents (Elt F)) (x3 : (⟨S192x512, .f32⟩ : BufTy).Contents (Elt F)) : (⟨S50000x512, .f32⟩ : BufTy).Contents (Elt F) :=
  Host.dotGeneral dot_S50000x192_S192x512_S50000x512_1_0_0_1_n_n none (concatenate S50000x192 1 [⟨S50000x64, x2⟩, ⟨S50000x128, x1⟩] concatenates_S50000x64_S50000x128_S50000x192_d1) x3

/-- The second dense product as the reference computes it: relu (h + b1) · W2. -/
def dense2 (h : (⟨S50000x512, .f32⟩ : BufTy).Contents (Elt F)) (x4 : (⟨S512, .f32⟩ : BufTy).Contents (Elt F)) (x5 : (⟨S512x2, .f32⟩ : BufTy).Contents (Elt F)) : (⟨S50000x2, .f32⟩ : BufTy).Contents (Elt F) :=
  Host.dotGeneral dot_S50000x512_S512x2_S50000x2_1_0_0_1_n_n none (maximumf (addf h (broadcastInDim S50000x512 ![0, 1] bcast_S1x512_S50000x512_0_1 (broadcastInDim S1x512 ![1] bcast_S512_S1x512_1 x4))) (broadcastInDim S50000x512 ![] bcast_S_S50000x512 (constant S_ .f32 0x00000000#32))) x5

/-- The reference's last stage: add b2 to each row, subtract the row's maximum, exponentiate, divide by the row's sum. -/
def biasSoftmax (y : (⟨S50000x2, .f32⟩ : BufTy).Contents (Elt F)) (x6 : (⟨S2, .f32⟩ : BufTy).Contents (Elt F)) : (⟨S50000x2, .f32⟩ : BufTy).Contents (Elt F) :=
  Host.divf (Host.exp (subf (addf y (broadcastInDim S50000x2 ![0, 1] bcast_S1x2_S50000x2_0_1 (broadcastInDim S1x2 ![1] bcast_S2_S1x2_1 x6))) (broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf (addf y (broadcastInDim S50000x2 ![0, 1] bcast_S1x2_S50000x2_0_1 (broadcastInDim S1x2 ![1] bcast_S2_S1x2_1 x6))) (constant S_ .f32 0xFF800000#32) reducesTo_S50000x2_S50000_d1 h_S_)))))) (broadcastInDim S50000x2 ![0, 1] bcast_S50000x1_S50000x2_0_1 (broadcastInDim S50000x1 ![0] bcast_S50000_S50000x1_0 (Host.reduceAdd (Host.exp (subf (addf y (broadcastInDim S50000x2 ![0, 1] bcast_S1x2_S50000x2_0_1 (broadcastInDim S1x2 ![1] bcast_S2_S1x2_1 x6))) (broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf (addf y (broadcastInDim S50000x2 ![0, 1] bcast_S1x2_S50000x2_0_1 (broadcastInDim S1x2 ![1] bcast_S2_S1x2_1 x6))) (constant S_ .f32 0xFF800000#32) reducesTo_S50000x2_S50000_d1 h_S_)))))) (constant S_ .f32 0x00000000#32) reducesTo_S50000x2_S50000_d1 h_S_)))

/-- The reference's result as a function of its seven arguments. -/
def result (x0 : (⟨S2x400000, .i32⟩ : BufTy).Contents (Elt F)) (x1 : (⟨S50000x128, .f32⟩ : BufTy).Contents (Elt F)) (x2 : (⟨S50000x64, .f32⟩ : BufTy).Contents (Elt F)) (x3 : (⟨S192x512, .f32⟩ : BufTy).Contents (Elt F)) (x4 : (⟨S512, .f32⟩ : BufTy).Contents (Elt F)) (x5 : (⟨S512x2, .f32⟩ : BufTy).Contents (Elt F)) (x6 : (⟨S2, .f32⟩ : BufTy).Contents (Elt F)) : (⟨S50000x2, .f32⟩ : BufTy).Contents (Elt F) :=
  biasSoftmax (aggregate2 x0 (dense2 (aggregate512 x0 (dense1 x1 x2 x3)) x4 x5)) x6

end Cert.ReferenceIdeal.Spec

end
-- ==== Proof.KerValue.lean ====
/-
  The contents of the idealized kernel program's buffers at each boundary between a stretch of host operations and a
  pipelined region, read back to the launch memory, at any float instance.
  Before the first region the host computes, from the edge list alone, the edges' source and target node numbers (with
  one self-loop per node) and the edges' weights, and cuts W1 into its rows 0 … 63 and 64 … 191. Between the regions it
  applies one aggregation step to the region's product — gather the rows at the sources, scale by the weights,
  scatter-add at the targets — and lays the next bias out as a one-row table. A region changes its own product array and
  nothing else. Each fact below is one buffer at one boundary; the host operations are never opened: they are the same
  compositions the reference applies.
-/
import proofs.«134711_j5583457485496_2_alg».proof.Proof.Gen.KernelIdeal.Frame
import proofs.«134711_j5583457485496_2_alg».proof.Proof.HostSpec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal (Spec.srcIdx Spec.dstIdx Spec.edgeWeight Spec.aggregate512 Spec.aggregate2)

variable {F : FTy → Type} [FloatOps F]
variable (m : (ℓ : Loc nD τ sig) → Buf (Elt F) ℓ) (ρ : Dev nD → PrngReg)

/-! ## At the first region's entry: after the three opening stretches of host operations -/

set_option maxHeartbeats 4000000 in
/-- The edges' sources when the first region is entered. -/
theorem src_at3 (c : Dev nD) : W3 m ρ c (Proc.devRef .tc main_v3) = Spec.srcIdx (F := F) (m ((c : Thread nD τ).loc main_arg0)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The edges' targets when the first region is entered. -/
theorem dst_at3 (c : Dev nD) : W3 m ρ c (Proc.devRef .tc main_v6) = Spec.dstIdx (F := F) (m ((c : Thread nD τ).loc main_arg0)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The edges' weights when the first region is entered. -/
theorem weight_at3 (c : Dev nD) : W3 m ρ c (Proc.devRef .tc main_v29) = Spec.edgeWeight (F := F) (m ((c : Thread nD τ).loc main_arg0)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The feature table X when the first region is entered. -/
theorem a1_at3 (c : Dev nD) : W3 m ρ c (Proc.devRef .tc main_arg1) = (m ((c : Thread nD τ).loc main_arg1)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The feature table U when the first region is entered. -/
theorem a2_at3 (c : Dev nD) : W3 m ρ c (Proc.devRef .tc main_arg2) = (m ((c : Thread nD τ).loc main_arg2)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The bias b1 when the first region is entered. -/
theorem a4_at3 (c : Dev nD) : W3 m ρ c (Proc.devRef .tc main_arg4) = (m ((c : Thread nD τ).loc main_arg4)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The weight matrix W2 when the first region is entered. -/
theorem a5_at3 (c : Dev nD) : W3 m ρ c (Proc.devRef .tc main_arg5) = (m ((c : Thread nD τ).loc main_arg5)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- The bias b2 when the first region is entered. -/
theorem a6_at3 (c : Dev nD) : W3 m ρ c (Proc.devRef .tc main_arg6) = (m ((c : Thread nD τ).loc main_arg6)) := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- Rows 0 … 63 of W1 when the first region is entered. -/
theorem wu_at3 (c : Dev nD) : W3 m ρ c (Proc.devRef .tc main_v30) = extractStridedSlice S64x512 ![0, 0] (m ((c : Thread nD τ).loc main_arg3)) slices_S192x512_S64x512_0_0 := by
  show StableHlo.after hostOps0_2 (StableHlo.after hostOps0_1 (StableHlo.after hostOps0 (W0 m ρ c))) _ = _
  simp only [hostOps0, hostOps0_1, hostOps0_2]
  after_results_simp <;> rfl

set_option maxHeartbeats 4000000 in
/-- Rows 64 … 191 of W1 when the first region is entered. -/
theorem wx_at3 (c : Dev nD) : W3 m ρ c (Proc.devRef .tc main_v31) = extractStridedSlice S128x512 ![64, 0] (m ((c : Thread nD τ).loc main_arg3)) slices_S192x512_S128x512_64_0 := by
  show StableHlo.after hostOps0_2 (StableHlo.after hostOps0_1 (StableHlo.after hostOps0 (W0 m ρ c))) _ = _
  simp only [hostOps0, hostOps0_1, hostOps0_2]
  after_results_simp <;> rfl

/-! ## At the first region's exit: only its product array has changed -/
theorem src_at4 (c : Dev nD) : W4 m ρ c (Proc.devRef .tc main_v3) = Spec.srcIdx (F := F) (m ((c : Thread nD τ).loc main_arg0)) :=
  (W4_of_ne m ρ c main_v3 (by decide)).trans (src_at3 m ρ c)
theorem dst_at4 (c : Dev nD) : W4 m ρ c (Proc.devRef .tc main_v6) = Spec.dstIdx (F := F) (m ((c : Thread nD τ).loc main_arg0)) :=
  (W4_of_ne m ρ c main_v6 (by decide)).trans (dst_at3 m ρ c)
theorem weight_at4 (c : Dev nD) : W4 m ρ c (Proc.devRef .tc main_v29) = Spec.edgeWeight (F := F) (m ((c : Thread nD τ).loc main_arg0)) :=
  (W4_of_ne m ρ c main_v29 (by decide)).trans (weight_at3 m ρ c)
theorem a4_at4 (c : Dev nD) : W4 m ρ c (Proc.devRef .tc main_arg4) = (m ((c : Thread nD τ).loc main_arg4)) :=
  (W4_of_ne m ρ c main_arg4 (by decide)).trans (a4_at3 m ρ c)
theorem a5_at4 (c : Dev nD) : W4 m ρ c (Proc.devRef .tc main_arg5) = (m ((c : Thread nD τ).loc main_arg5)) :=
  (W4_of_ne m ρ c main_arg5 (by decide)).trans (a5_at3 m ρ c)
theorem a6_at4 (c : Dev nD) : W4 m ρ c (Proc.devRef .tc main_arg6) = (m ((c : Thread nD τ).loc main_arg6)) :=
  (W4_of_ne m ρ c main_arg6 (by decide)).trans (a6_at3 m ρ c)

/-! ## At the second region's entry: after the first aggregation step -/

set_option maxHeartbeats 4000000 in
/-- The aggregated 512-feature table when the second region is entered: one aggregation step on the first region's product. -/
theorem agg_at5 (c : Dev nD) : W5 m ρ c (Proc.devRef .tc main_v45) = Spec.aggregate512 (F := F) (m ((c : Thread nD τ).loc main_arg0)) (W4 m ρ c (Proc.devRef .tc main_v32)) := by
  show StableHlo.after hostOps1 (W4 m ρ c) _ = _
  simp only [hostOps1]
  after_results_simp
  rw [weight_at4 m ρ c, src_at4 m ρ c, dst_at4 m ρ c]
  rfl

set_option maxHeartbeats 4000000 in
/-- The bias b1 as a one-row table when the second region is entered. -/
theorem bias_at5 (c : Dev nD) : W5 m ρ c (Proc.devRef .tc main_v46) = shapeCast S1x512 (m ((c : Thread nD τ).loc main_arg4)) shapeCasts_S512_S1x512 := by
  show StableHlo.after hostOps1 (W4 m ρ c) _ = _
  simp only [hostOps1]
  after_results_simp
  rw [a4_at4 m ρ c]
  rfl

set_option maxHeartbeats 4000000 in
theorem src_at5 (c : Dev nD) : W5 m ρ c (Proc.devRef .tc main_v3) = Spec.srcIdx (F := F) (m ((c : Thread nD τ).loc main_arg0)) := by
  show StableHlo.after hostOps1 (W4 m ρ c) _ = _
  simp only [hostOps1]
  after_results_simp
  exact src_at4 m ρ c

set_option maxHeartbeats 4000000 in
theorem dst_at5 (c : Dev nD) : W5 m ρ c (Proc.devRef .tc main_v6) = Spec.dstIdx (F := F) (m ((c : Thread nD τ).loc main_arg0)) := by
  show StableHlo.after hostOps1 (W4 m ρ c) _ = _
  simp only [hostOps1]
  after_results_simp
  exact dst_at4 m ρ c

set_option maxHeartbeats 4000000 in
theorem weight_at5 (c : Dev nD) : W5 m ρ c (Proc.devRef .tc main_v29) = Spec.edgeWeight (F := F) (m ((c : Thread nD τ).loc main_arg0)) := by
  show StableHlo.after hostOps1 (W4 m ρ c) _ = _
  simp only [hostOps1]
  after_results_simp
  exact weight_at4 m ρ c

set_option maxHeartbeats 4000000 in
theorem a5_at5 (c : Dev nD) : W5 m ρ c (Proc.devRef .tc main_arg5) = (m ((c : Thread nD τ).loc main_arg5)) := by
  show StableHlo.after hostOps1 (W4 m ρ c) _ = _
  simp only [hostOps1]
  after_results_simp
  exact a5_at4 m ρ c

set_option maxHeartbeats 4000000 in
theorem a6_at5 (c : Dev nD) : W5 m ρ c (Proc.devRef .tc main_arg6) = (m ((c : Thread nD τ).loc main_arg6)) := by
  show StableHlo.after hostOps1 (W4 m ρ c) _ = _
  simp only [hostOps1]
  after_results_simp
  exact a6_at4 m ρ c

/-! ## At the second region's exit: only its product array has changed -/
theorem src_at6 (c : Dev nD) : W6 m ρ c (Proc.devRef .tc main_v3) = Spec.srcIdx (F := F) (m ((c : Thread nD τ).loc main_arg0)) :=
  (W6_of_ne m ρ c main_v3 (by decide)).trans (src_at5 m ρ c)
theorem dst_at6 (c : Dev nD) : W6 m ρ c (Proc.devRef .tc main_v6) = Spec.dstIdx (F := F) (m ((c : Thread nD τ).loc main_arg0)) :=
  (W6_of_ne m ρ c main_v6 (by decide)).trans (dst_at5 m ρ c)
theorem weight_at6 (c : Dev nD) : W6 m ρ c (Proc.devRef .tc main_v29) = Spec.edgeWeight (F := F) (m ((c : Thread nD τ).loc main_arg0)) :=
  (W6_of_ne m ρ c main_v29 (by decide)).trans (weight_at5 m ρ c)
theorem a6_at6 (c : Dev nD) : W6 m ρ c (Proc.devRef .tc main_arg6) = (m ((c : Thread nD τ).loc main_arg6)) :=
  (W6_of_ne m ρ c main_arg6 (by decide)).trans (a6_at5 m ρ c)

/-! ## At the third region's entry: after the second aggregation step -/

set_option maxHeartbeats 4000000 in
/-- The aggregated logits when the third region is entered: one aggregation step on the second region's product. -/
theorem agg_at7 (c : Dev nD) : W7 m ρ c (Proc.devRef .tc main_v60) = Spec.aggregate2 (F := F) (m ((c : Thread nD τ).loc main_arg0)) (W6 m ρ c (Proc.devRef .tc main_v47)) := by
  show StableHlo.after hostOps2 (W6 m ρ c) _ = _
  simp only [hostOps2]
  after_results_simp
  rw [weight_at6 m ρ c, src_at6 m ρ c, dst_at6 m ρ c]
  rfl

set_option maxHeartbeats 4000000 in
/-- The bias b2 as a one-row table when the third region is entered. -/
theorem bias_at7 (c : Dev nD) : W7 m ρ c (Proc.devRef .tc main_v61) = shapeCast S1x2 (m ((c : Thread nD τ).loc main_arg6)) shapeCasts_S2_S1x2 := by
  show StableHlo.after hostOps2 (W6 m ρ c) _ = _
  simp only [hostOps2]
  after_results_simp
  rw [a6_at6 m ρ c]
  rfl

end Cert.KernelIdeal.Hand

end
-- ==== Proof.Region0.lean ====
/-
  The first pipelined region: the dense product of the first layer, ten row blocks of 5000 nodes each.
  At grid point t the body loads rows 5000·t … 5000·t + 4999 of the two feature tables U (64 columns) and X (128 columns)
  and the whole of the two weight matrices Wu (64 × 512) and Wx (128 × 512), and stores  U_t · Wu + X_t · Wx , both
  products accumulated from zero. Over the extended reals entry (r, j) of a block's product is the plain sum over the inner
  index of the products of entries, so each block is the restriction to its rows of ONE function of the four arrays,
      dense1K U X Wu Wx (r, j) = Σ_{k < 64} U(r, k) · Wu(k, j) + Σ_{k < 128} X(r, k) · Wx(k, j) ,
  and since the ten blocks tile the 50000 rows the product array holds exactly that function after the region.
-/
import proofs.«134711_j5583457485496_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Cert.KernelIdeal Cert.KernelIdeal.Gen Idealize.ShloMosaic Idealize.ShloMosaic.TcCoe Idealize.SL.Sem
open Idealize.ShloMosaic.Pipeline (Dat)
open Idealize.ShloMosaic.ValueIdx

theorem lhs0_u (i : S5000x512.Idx) (κ : dot_S5000x64_S64x512_S5000x512_1_0_0_1_n_n.contr.Idx) : (dot_S5000x64_S64x512_S5000x512_1_0_0_1_n_n.lhsIdx i κ 0).val = (i 0).val := by
  unfold DotDims.lhsIdx
  rw [dif_neg (show ¬(0 : Fin S5000x64.rank) ∈ dot_S5000x64_S64x512_S5000x512_1_0_0_1_n_n.lhsBatch by decide), dif_pos (show (0 : Fin S5000x64.rank) ∈ dot_S5000x64_S64x512_S5000x512_1_0_0_1_n_n.lhsNonContracting by decide)]
  rfl
theorem lhs1_u (i : S5000x512.Idx) (κ : dot_S5000x64_S64x512_S5000x512_1_0_0_1_n_n.contr.Idx) : (dot_S5000x64_S64x512_S5000x512_1_0_0_1_n_n.lhsIdx i κ 1).val = (κ ⟨0, by decide⟩).val :=
  dot_S5000x64_S64x512_S5000x512_1_0_0_1_n_n.lhsIdx_val_of_single rfl i κ
theorem rhs0_u (i : S5000x512.Idx) (κ : dot_S5000x64_S64x512_S5000x512_1_0_0_1_n_n.contr.Idx) : (dot_S5000x64_S64x512_S5000x512_1_0_0_1_n_n.rhsIdx i κ 0).val = (κ ⟨0, by decide⟩).val :=
  dot_S5000x64_S64x512_S5000x512_1_0_0_1_n_n.rhsIdx_val_of_single rfl i κ
theorem rhs1_u (i : S5000x512.Idx) (κ : dot_S5000x64_S64x512_S5000x512_1_0_0_1_n_n.contr.Idx) : (dot_S5000x64_S64x512_S5000x512_1_0_0_1_n_n.rhsIdx i κ 1).val = (i 1).val := by
  unfold DotDims.rhsIdx
  rw [dif_neg (show ¬(1 : Fin S64x512.rank) ∈ dot_S5000x64_S64x512_S5000x512_1_0_0_1_n_n.rhsBatch by decide), dif_pos (show (1 : Fin S64x512.rank) ∈ dot_S5000x64_S64x512_S5000x512_1_0_0_1_n_n.rhsNonContracting by decide)]
  rfl

/-- Entry (p, q) of the product of an 5000×64 block with a 64×512 matrix, accumulated from zero: the sum over the 64 inner
    positions of the block's row p times the matrix's column q. -/
theorem matmul_u (x : FVec Ideal S5000x64 .f32) (w : FVec Ideal S64x512 .f32) (p : Fin 5000) (q : Fin 512) :
    matmul dot_S5000x64_S64x512_S5000x512_1_0_0_1_n_n none x w (constant S5000x512 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x512_S5000x512_1_0_0_1_n_n 64 rfl rfl).symm]
  refine Finset.sum_congr rfl fun k _ => ?_
  have hk := ValueIdx.contrEquiv1_symm_val dot_S5000x64_S64x512_S5000x512_1_0_0_1_n_n 64 rfl rfl k
  have el : dot_S5000x64_S64x512_S5000x512_1_0_0_1_n_n.lhsIdx (ix2 p q) ((ValueIdx.contrEquiv1 dot_S5000x64_S64x512_S5000x512_1_0_0_1_n_n 64 rfl rfl).symm k) = ix2 p k := funext fun a => Fin.ext (by
    match a with
    | ⟨0, _⟩ => exact lhs0_u _ _
    | ⟨1, _⟩ => exact (lhs1_u _ _).trans hk)
  have er : dot_S5000x64_S64x512_S5000x512_1_0_0_1_n_n.rhsIdx (ix2 p q) ((ValueIdx.contrEquiv1 dot_S5000x64_S64x512_S5000x512_1_0_0_1_n_n 64 rfl rfl).symm k) = ix2 k q := funext fun a => Fin.ext (by
    match a with
    | ⟨0, _⟩ => exact (rhs0_u _ _).trans hk
    | ⟨1, _⟩ => exact rhs1_u _ _)
  rw [el, er]

theorem lhs0_x (i : S5000x512.Idx) (κ : dot_S5000x128_S128x512_S5000x512_1_0_0_1_n_n.contr.Idx) : (dot_S5000x128_S128x512_S5000x512_1_0_0_1_n_n.lhsIdx i κ 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
theorem lhs1_x (i : S5000x512.Idx) (κ : dot_S5000x128_S128x512_S5000x512_1_0_0_1_n_n.contr.Idx) : (dot_S5000x128_S128x512_S5000x512_1_0_0_1_n_n.lhsIdx i κ 1).val = (κ ⟨0, by decide⟩).val :=
  dot_S5000x128_S128x512_S5000x512_1_0_0_1_n_n.lhsIdx_val_of_single rfl i κ
theorem rhs0_x (i : S5000x512.Idx) (κ : dot_S5000x128_S128x512_S5000x512_1_0_0_1_n_n.contr.Idx) : (dot_S5000x128_S128x512_S5000x512_1_0_0_1_n_n.rhsIdx i κ 0).val = (κ ⟨0, by decide⟩).val :=
  dot_S5000x128_S128x512_S5000x512_1_0_0_1_n_n.rhsIdx_val_of_single rfl i κ
theorem rhs1_x (i : S5000x512.Idx) (κ : dot_S5000x128_S128x512_S5000x512_1_0_0_1_n_n.contr.Idx) : (dot_S5000x128_S128x512_S5000x512_1_0_0_1_n_n.rhsIdx i κ 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- Entry (p, q) of the product of an 5000×128 block with a 128×512 matrix, accumulated from zero: the sum over the 128 inner
    positions of the block's row p times the matrix's column q. -/
theorem matmul_x (x : FVec Ideal S5000x128 .f32) (w : FVec Ideal S128x512 .f32) (p : Fin 5000) (q : Fin 512) :
    matmul dot_S5000x128_S128x512_S5000x512_1_0_0_1_n_n none x w (constant S5000x512 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x512_S5000x512_1_0_0_1_n_n 128 rfl rfl).symm]
  refine Finset.sum_congr rfl fun k _ => ?_
  have hk := ValueIdx.contrEquiv1_symm_val dot_S5000x128_S128x512_S5000x512_1_0_0_1_n_n 128 rfl rfl k
  have el : dot_S5000x128_S128x512_S5000x512_1_0_0_1_n_n.lhsIdx (ix2 p q) ((ValueIdx.contrEquiv1 dot_S5000x128_S128x512_S5000x512_1_0_0_1_n_n 128 rfl rfl).symm k) = ix2 p k := funext fun a => Fin.ext (by
    match a with
    | ⟨0, _⟩ => exact lhs0_x _ _
    | ⟨1, _⟩ => exact (lhs1_x _ _).trans hk)
  have er : dot_S5000x128_S128x512_S5000x512_1_0_0_1_n_n.rhsIdx (ix2 p q) ((ValueIdx.contrEquiv1 dot_S5000x128_S128x512_S5000x512_1_0_0_1_n_n 128 rfl rfl).symm k) = ix2 k q := funext fun a => Fin.ext (by
    match a with
    | ⟨0, _⟩ => exact (rhs0_x _ _).trans hk
    | ⟨1, _⟩ => exact rhs1_x _ _)
  rw [el, er]

/-- The offset of a whole-block access. -/
theorem hz : (![0, 0] : Fin 2 → Nat) = fun _ => 0 := funext fun a => by fin_cases a <;> rfl

/-- The body's stored value at entry (p, q) of the block: the two partial products added. -/
theorem pay0_apply (x0 : FVec Ideal S5000x64 .f32) (x1 : FVec Ideal S64x512 .f32) (x2 : FVec Ideal S5000x128 .f32) (x3 : FVec Ideal S128x512 .f32) (p : Fin 5000) (q : Fin 512) :
    k0_pay1 x0 x1 x2 x3 (ix2 p q) = (∑ k : Fin 64, x0 (ix2 p k) * x1 (ix2 k q)) + ∑ k : Fin 128, x2 (ix2 p k) * x3 (ix2 k q) := by
  have e1 : shapeCast S64x512 x1 shapeCasts_S64x512_S64x512 = x1 := shapeCast_self _ _
  have e2 : shapeCast S128x512 x3 shapeCasts_S128x512_S128x512 = x3 := shapeCast_self _ _
  unfold k0_pay1
  simp only [e1, e2]
  exact congrArg₂ (· + ·) (matmul_u x0 x1 p q) (matmul_x x2 x3 p q)

/-- The first layer's dense product as one function of the two feature tables and the two halves of the weight matrix. -/
def dense1K (U : FVec Ideal S50000x64 .f32) (X : FVec Ideal S50000x128 .f32) (Wu : FVec Ideal S64x512 .f32) (Wx : FVec Ideal S128x512 .f32) : FVec Ideal S50000x512 .f32 :=
  fun i => (∑ k : Fin 64, U (ix2 (i 0) k) * Wu (ix2 k (i 1))) + ∑ k : Fin 128, X (ix2 (i 0) k) * Wx (ix2 k (i 1))

variable (V : (c : Dev nD) → (b : Ref sig .tc) → Buf (Elt Ideal) ((c : Thread nD τ).loc b))

/-- The index maps of the region's five windows over the grid: the row-blocked windows sit at block (t, 0), the weight
    windows at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point t writes back is block t of `dense1K` of the region's input arrays: row p of the point's blocks of U
    and X is row 5000·t + p of the arrays, and the weight blocks are the whole matrices. -/
theorem flushed0_eq (c : Dev nD) (t : Fin cfg0.N) :
    (dat0 V c).flushed 4 t = ((cfg0.win 4).blk t).view.read (Elt Ideal) (dense1K (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x512) hz, View.ld_unit_zero (S := S5000x128) hz, View.ld_unit_zero (S := S128x512) hz]
  funext j

  obtain ⟨p, q, rfl⟩ : ∃ (p : Fin 5000) (q : Fin 512), j = ix2 p q := ⟨j 0, j 1, eq_ix2 j⟩
  obtain ⟨f00, f01, f10, f11, f20, f21, f30, f31, f40, f41⟩ := idx_facts0 t
  show k0_pay1 (iblk0 V c 0 t) (iblk0 V c 2 t) (iblk0 V c 1 t) (iblk0 V c 3 t) (ix2 p q)
    = dense1K (V c (Pipeline.arrRef spec0 0)) (V c (Pipeline.arrRef spec0 1)) (V c (Pipeline.arrRef spec0 2)) (V c (Pipeline.arrRef spec0 3)) (((cfg0.win 4).blk t).view.emb (ix2 p q))
  refine (pay0_apply _ _ _ _ p q).trans ?_
  unfold dense1K
  have hU : ∀ k : Fin 64, ((cfg0.win 0).blk t).view.emb (ix2 p k) = ix2 ((((cfg0.win 4).blk t).view.emb (ix2 p q)) 0) k := fun k => by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have hX : ∀ k : Fin 128, ((cfg0.win 1).blk t).view.emb (ix2 p k) = ix2 ((((cfg0.win 4).blk t).view.emb (ix2 p q)) 0) k := fun k => by
    funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 128 + 1 * k.val = k.val; omega
  have hWu : ∀ k : Fin 64, ((cfg0.win 2).blk t).view.emb (ix2 k q) = ix2 k ((((cfg0.win 4).blk t).view.emb (ix2 p q)) 1) := fun k => by
    funext a; apply Fin.ext
    match a with
    | ⟨0, _⟩ => show win0_2.index t (0 : Fin 2) * 64 + 1 * k.val = k.val; omega
    | ⟨1, _⟩ => show win0_2.index t (1 : Fin 2) * 512 + 1 * q.val = win0_4.index t (1 : Fin 2) * 512 + 1 * q.val; omega
  have hWx : ∀ k : Fin 128, ((cfg0.win 3).blk t).view.emb (ix2 k q) = ix2 k ((((cfg0.win 4).blk t).view.emb (ix2 p q)) 1) := fun k => by
    funext a; apply Fin.ext
    match a with
    | ⟨0, _⟩ => show win0_3.index t (0 : Fin 2) * 128 + 1 * k.val = k.val; omega
    | ⟨1, _⟩ => show win0_3.index t (1 : Fin 2) * 512 + 1 * q.val = win0_4.index t (1 : Fin 2) * 512 + 1 * q.val; omega
  refine congrArg₂ (· + ·) (Finset.sum_congr rfl fun k _ => ?_) (Finset.sum_congr rfl fun k _ => ?_)
  · exact congrArg₂ (· * ·) (congrArg (V c (Pipeline.arrRef spec0 0) : FVec Ideal S50000x64 .f32) (hU k)) (congrArg (V c (Pipeline.arrRef spec0 2) : FVec Ideal S64x512 .f32) (hWu k))
  · exact congrArg₂ (· * ·) (congrArg (V c (Pipeline.arrRef spec0 1) : FVec Ideal S50000x128 .f32) (hX k)) (congrArg (V c (Pipeline.arrRef spec0 3) : FVec Ideal S128x512 .f32) (hWx k))

/-- An index of the product array lies in grid point t's block iff each coordinate lies in the block's range on its axis. -/
theorem mem_blk0 (t : Fin cfg0.N) (i : S50000x512.Idx) :
    i ∈ ((cfg0.win 4).blk t).view.set ↔ ∀ a : Fin 2, win0_4.index t a * S5000x512.size a ≤ (i a).val ∧ (i a).val < win0_4.index t a * S5000x512.size a + S5000x512.size a := by
  show i ∈ ((View.whole main_v32).slice (win0_4.rect t)).set ↔ _
  rw [View.set_slice_whole, Rect.mem_set_unit]
  exact Iff.rfl

/-- Row r of the product array is written back by grid point r / 5000. -/
theorem cover0 (i : S50000x512.Idx) : ∃ t : Fin cfg0.N, (cfg0.win 4).flush t = true ∧ i ∈ ((cfg0.win 4).blk t).view.set := by
  have hi0 : (i 0).val < 50000 := (i 0).isLt
  have hi1 : (i 1).val < 512 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, f40, f41⟩ := idx_facts0 t
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 512 ≤ (i 1).val ∧ (i 1).val < win0_4.index t (1 : Fin 2) * 512 + 512; omega

/-- After the first region the product array holds `dense1K` of the region's four input arrays as it found them. -/
theorem final0 (c : Dev nD) :
    (dat0 V c).arrAt 4 cfg0.N = dense1K (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_eq V c t) cover0

end Cert.KernelIdeal.Hand

end
-- ==== Proof.Region1.lean ====
/-
  The second pipelined region: bias, relu and the dense product of the second layer, ten row blocks of 5000 nodes each.
  At grid point t the body loads rows 5000·t … 5000·t + 4999 of the aggregated table H (512 columns), the one bias row B
  and the whole weight matrix W (512 × 2), and stores  max (H_t + B, 0) · W  accumulated from zero. Over the extended reals
  entry (r, j) of a block's product is the sum over the inner index of the products of entries, so each block is the
  restriction to its rows of ONE function of the three arrays, and since the ten blocks tile the 50000 rows the product
  array holds exactly that function after the region.
-/
import proofs.«134711_j5583457485496_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Cert.KernelIdeal Cert.KernelIdeal.Gen Idealize.ShloMosaic Idealize.ShloMosaic.TcCoe Idealize.SL.Sem
open Idealize.ShloMosaic.Pipeline (Dat)
open Idealize.ShloMosaic.ValueIdx

theorem lhs0_w (i : S5000x2.Idx) (κ : dot_S5000x512_S512x2_S5000x2_1_0_0_1_n_n.contr.Idx) : (dot_S5000x512_S512x2_S5000x2_1_0_0_1_n_n.lhsIdx i κ 0).val = (i 0).val := by
  unfold DotDims.lhsIdx
  rw [dif_neg (show ¬(0 : Fin S5000x512.rank) ∈ dot_S5000x512_S512x2_S5000x2_1_0_0_1_n_n.lhsBatch by decide), dif_pos (show (0 : Fin S5000x512.rank) ∈ dot_S5000x512_S512x2_S5000x2_1_0_0_1_n_n.lhsNonContracting by decide)]
  rfl
theorem lhs1_w (i : S5000x2.Idx) (κ : dot_S5000x512_S512x2_S5000x2_1_0_0_1_n_n.contr.Idx) : (dot_S5000x512_S512x2_S5000x2_1_0_0_1_n_n.lhsIdx i κ 1).val = (κ ⟨0, by decide⟩).val :=
  dot_S5000x512_S512x2_S5000x2_1_0_0_1_n_n.lhsIdx_val_of_single rfl i κ
theorem rhs0_w (i : S5000x2.Idx) (κ : dot_S5000x512_S512x2_S5000x2_1_0_0_1_n_n.contr.Idx) : (dot_S5000x512_S512x2_S5000x2_1_0_0_1_n_n.rhsIdx i κ 0).val = (κ ⟨0, by decide⟩).val :=
  dot_S5000x512_S512x2_S5000x2_1_0_0_1_n_n.rhsIdx_val_of_single rfl i κ
theorem rhs1_w (i : S5000x2.Idx) (κ : dot_S5000x512_S512x2_S5000x2_1_0_0_1_n_n.contr.Idx) : (dot_S5000x512_S512x2_S5000x2_1_0_0_1_n_n.rhsIdx i κ 1).val = (i 1).val := by
  unfold DotDims.rhsIdx
  rw [dif_neg (show ¬(1 : Fin S512x2.rank) ∈ dot_S5000x512_S512x2_S5000x2_1_0_0_1_n_n.rhsBatch by decide), dif_pos (show (1 : Fin S512x2.rank) ∈ dot_S5000x512_S512x2_S5000x2_1_0_0_1_n_n.rhsNonContracting by decide)]
  rfl

/-- Entry (p, q) of the product of an 5000×512 block with a 512×2 matrix, accumulated from zero: the sum over the 512 inner
    positions of the block's row p times the matrix's column q. -/
theorem matmul_w (x : FVec Ideal S5000x512 .f32) (w : FVec Ideal S512x2 .f32) (p : Fin 5000) (q : Fin 2) :
    matmul dot_S5000x512_S512x2_S5000x2_1_0_0_1_n_n none x w (constant S5000x2 .f32 0x00000000#32) (ix2 p q)
      = ∑ k : Fin 512, x (ix2 p k) * w (ix2 k q) := by
  simp only [matmul]
  rw [Ideal.matmul_constant_zero_apply, ← Equiv.sum_comp (ValueIdx.contrEquiv1 dot_S5000x512_S512x2_S5000x2_1_0_0_1_n_n 512 rfl rfl).symm]
  refine Finset.sum_congr rfl fun k _ => ?_
  have hk := ValueIdx.contrEquiv1_symm_val dot_S5000x512_S512x2_S5000x2_1_0_0_1_n_n 512 rfl rfl k
  have el : dot_S5000x512_S512x2_S5000x2_1_0_0_1_n_n.lhsIdx (ix2 p q) ((ValueIdx.contrEquiv1 dot_S5000x512_S512x2_S5000x2_1_0_0_1_n_n 512 rfl rfl).symm k) = ix2 p k := funext fun a => Fin.ext (by
    match a with
    | ⟨0, _⟩ => exact lhs0_w _ _
    | ⟨1, _⟩ => exact (lhs1_w _ _).trans hk)
  have er : dot_S5000x512_S512x2_S5000x2_1_0_0_1_n_n.rhsIdx (ix2 p q) ((ValueIdx.contrEquiv1 dot_S5000x512_S512x2_S5000x2_1_0_0_1_n_n 512 rfl rfl).symm k) = ix2 k q := funext fun a => Fin.ext (by
    match a with
    | ⟨0, _⟩ => exact (rhs0_w _ _).trans hk
    | ⟨1, _⟩ => exact rhs1_w _ _)
  rw [el, er]

/-- The offset of a whole-block access. -/
theorem hz1 : (![0, 0] : Fin 2 → Nat) = fun _ => 0 := funext fun a => by fin_cases a <;> rfl

/-- The body's stored value at entry (p, q) of the block: row p of relu (h + b), b the one bias row, times column q of W. -/
theorem pay1_apply (x0 : FVec Ideal S5000x512 .f32) (b : FVec Ideal S1x512 .f32) (w : FVec Ideal S512x2 .f32) (p : Fin 5000) (q : Fin 2) :
    k1_pay1 x0 b w (ix2 p q) = ∑ k : Fin 512, max (x0 (ix2 p k) + b (ix2 (0 : Fin 1) k)) (Ideal.ofBits .f32 0x00000000#32) * w (ix2 k q) := by
  have e1 : shapeCast S5000x512 x0 shapeCasts_S5000x512_S5000x512 = x0 := shapeCast_self _ _
  have e2 : shapeCast S1x512 b shapeCasts_S1x512_S1x512 = b := shapeCast_self _ _
  unfold k1_pay1
  simp only [e1, e2]
  refine (matmul_w _ w p q).trans ?_
  refine Finset.sum_congr rfl fun k _ => ?_
  refine congrArg (· * w (ix2 k q)) ?_
  exact congrArg (fun z => max (x0 (ix2 p k) + z) (Ideal.ofBits .f32 0x00000000#32)) (broadcastTo_1b_ab_apply b broadcasts_S1x512_S5000x512 p k)

/-- The second layer's dense product as one function of the aggregated table, the bias row and the weight matrix:
    entry (r, j) is Σ_{k < 512} max (H(r, k) + B(0, k), 0) · W(k, j). -/
def dense2K (H : FVec Ideal S50000x512 .f32) (B : FVec Ideal S1x512 .f32) (W : FVec Ideal S512x2 .f32) : FVec Ideal S50000x2 .f32 :=
  fun i => ∑ k : Fin 512, max (H (ix2 (i 0) k) + B (ix2 (0 : Fin 1) k)) (Ideal.ofBits .f32 0x00000000#32) * W (ix2 k (i 1))

variable (V : (c : Dev nD) → (b : Ref sig .tc) → Buf (Elt Ideal) ((c : Thread nD τ).loc b))

/-- The index maps of the region's four windows over the grid: the row-blocked windows sit at block (t, 0), the bias
    row and the weight matrix at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of `dense2K` of the region's input arrays. -/
theorem flushed1_eq (c : Dev nD) (t : Fin cfg1.N) :
    (dat1 V c).flushed 3 t = ((cfg1.win 3).blk t).view.read (Elt Ideal) (dense2K (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x512) hz1, View.ld_unit_zero (S := S1x512) hz1, View.ld_unit_zero (S := S512x2) hz1]
  funext j
  obtain ⟨p, q, rfl⟩ : ∃ (p : Fin 5000) (q : Fin 2), j = ix2 p q := ⟨j 0, j 1, eq_ix2 j⟩
  obtain ⟨f00, f01, f10, f11, f20, f21, f30, f31⟩ := idx_facts1 t
  show k1_pay1 (iblk1 V c 0 t) (iblk1 V c 1 t) (iblk1 V c 2 t) (ix2 p q)
    = dense2K (V c (Pipeline.arrRef spec1 0)) (V c (Pipeline.arrRef spec1 1)) (V c (Pipeline.arrRef spec1 2)) (((cfg1.win 3).blk t).view.emb (ix2 p q))
  refine (pay1_apply _ _ _ p q).trans ?_
  unfold dense2K
  have hH : ∀ k : Fin 512, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 512 + 1 * k.val = k.val; omega
  have hB : ∀ k : Fin 512, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 512 + 1 * k.val = k.val; omega
  have hW : ∀ k : Fin 512, ((cfg1.win 2).blk t).view.emb (ix2 k q) = ix2 k ((((cfg1.win 3).blk t).view.emb (ix2 p q)) 1) := fun k => by
    funext a; apply Fin.ext
    match a with
    | ⟨0, _⟩ => show win1_2.index t (0 : Fin 2) * 512 + 1 * k.val = k.val; omega
    | ⟨1, _⟩ => show win1_2.index t (1 : Fin 2) * 2 + 1 * q.val = win1_3.index t (1 : Fin 2) * 2 + 1 * q.val; omega
  refine Finset.sum_congr rfl fun k _ => ?_
  exact congrArg₂ (· * ·)
    (congrArg₂ (fun a b => max (a + b) (Ideal.ofBits .f32 0x00000000#32))
      (congrArg (V c (Pipeline.arrRef spec1 0) : FVec Ideal S50000x512 .f32) (hH k))
      (congrArg (V c (Pipeline.arrRef spec1 1) : FVec Ideal S1x512 .f32) (hB k)))
    (congrArg (V c (Pipeline.arrRef spec1 2) : FVec Ideal S512x2 .f32) (hW k))

/-- An index of the product array lies in grid point t's block iff each coordinate lies in the block's range on its axis. -/
theorem mem_blk1 (t : Fin cfg1.N) (i : S50000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v47).slice (win1_3.rect t)).set ↔ _
  rw [View.set_slice_whole, Rect.mem_set_unit]
  exact Iff.rfl

/-- Row r of the product array is written back by grid point r / 5000. -/
theorem cover1 (i : S50000x2.Idx) : ∃ t : Fin cfg1.N, (cfg1.win 3).flush t = true ∧ i ∈ ((cfg1.win 3).blk t).view.set := by
  have hi0 : (i 0).val < 50000 := (i 0).isLt
  have hi1 : (i 1).val < 2 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, f30, f31⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- After the second region the product array holds `dense2K` of the region's three input arrays as it found them. -/
theorem final1 (c : Dev nD) :
    (dat1 V c).arrAt 3 cfg1.N = dense2K (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.Hand

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SoftmaxSpec.lean ====
/-
  The softmax of a row of two extended reals, as both programs compute it: subtract the row's maximum (taken from -∞),
  exponentiate, divide by the sum of the two exponentials. Stated over a function on the two column positions.
-/
import Idealize.ShloMosaic.PureOps.Ideal
import Idealize.ShloMosaic.PureOps.Ideal.Laws

noncomputable section

namespace Cert.Spec

open Idealize.ShloMosaic

/-- The maximum of the row's two entries and -∞ (the f32 pattern of -∞ read as an extended real). -/
def rowMax (z : Fin 2 → EReal) : EReal :=
  (Finset.univ : Finset (Fin 2)).fold max (Ideal.ofBits .f32 0xFF800000#32) z

/-- exp (z_q - max z) / Σ_k exp (z_k - max z). -/
def softmax2 (z : Fin 2 → EReal) (q : Fin 2) : EReal :=
  Ideal.div (Ideal.exp (z q - rowMax z)) (∑ k : Fin 2, Ideal.exp (z k - rowMax z))

/-- Taking the maximum with -∞ once more changes nothing: the fold already starts from -∞. -/
theorem max_init_rowMax (z : Fin 2 → EReal) : max (Ideal.ofBits .f32 0xFF800000#32) (rowMax z) = rowMax z := by
  apply max_eq_right
  unfold rowMax
  exact (Finset.le_fold_max _).2 (Or.inl le_rfl)

end Cert.Spec

end
-- ==== Proof.Region2.lean ====
/-
  The third pipelined region: bias and row softmax, ten row blocks of 5000 nodes each.
  At grid point t the body loads rows 5000·t … 5000·t + 4999 of the aggregated logits Y (2 columns) and the one bias row B,
  and stores, for each row, exp (z - max z) / Σ exp (z - max z) with z the row of Y + B, the maximum taken from -∞ and
  the sum from zero. Each block is the restriction to its rows of ONE function of the two arrays, and since the ten
  blocks tile the 50000 rows the result array holds exactly that function after the region.
-/
import proofs.«134711_j5583457485496_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134711_j5583457485496_2_alg».proof.Proof.LibKeepdims
import proofs.«134711_j5583457485496_2_alg».proof.Proof.SoftmaxSpec
noncomputable section
namespace Cert.KernelIdeal.Hand
open Cert.KernelIdeal Cert.KernelIdeal.Gen Idealize.ShloMosaic Idealize.ShloMosaic.TcCoe Idealize.SL.Sem
open Idealize.ShloMosaic.Pipeline (Dat)
open Idealize.ShloMosaic.ValueIdx
open Cert.Spec

/-- The offset of a whole-block access. -/
theorem hz2 : (![0, 0] : Fin 2 → Nat) = fun _ => 0 := funext fun a => by fin_cases a <;> rfl

/-- Row p of a 5000 × 2 block with column k put back in: entry (p, k). -/
theorem lift_row (p : Fin 5000) (k : Fin 2) : reduces_S5000x2_S5000.lift (ix1 p) k = ix2 p k :=
  funext fun a => Fin.ext (by match a with | ⟨0, _⟩ => rfl | ⟨1, _⟩ => rfl)

/-- The body's arithmetic on a block z of biased logits, read at entry (p, q): the softmax of row p at column q. -/
theorem softmax_block (z : FVec Ideal S5000x2 .f32) (p : Fin 5000) (q : Fin 2) :
    divf (exp (subf z (broadcastTo S5000x2 (shapeCast S5000x1 (multiReduction .maximumf [1] S5000 z 0xFF800000#32 reduces_S5000x2_S5000 (.inl rfl) rfl) shapeCasts_S5000_S5000x1) broadcasts_S5000x1_S5000x2)))
      (broadcastTo S5000x2 (shapeCast S5000x1 (multiReduction .add [1] S5000 (exp (subf z (broadcastTo S5000x2 (shapeCast S5000x1 (multiReduction .maximumf [1] S5000 z 0xFF800000#32 reduces_S5000x2_S5000 (.inl rfl) rfl) shapeCasts_S5000_S5000x1) broadcasts_S5000x1_S5000x2))) 0x00000000#32 reduces_S5000x2_S5000 (.inl rfl) rfl) shapeCasts_S5000_S5000x1) broadcasts_S5000x1_S5000x2) (ix2 p q)
      = softmax2 (fun k => z (ix2 p k)) q := by
  have hM : ∀ k : Fin 2, broadcastTo S5000x2 (shapeCast S5000x1 (multiReduction .maximumf [1] S5000 z 0xFF800000#32 reduces_S5000x2_S5000 (.inl rfl) rfl) shapeCasts_S5000_S5000x1) broadcasts_S5000x1_S5000x2 (ix2 p k)
      = rowMax (fun k => z (ix2 p k)) := fun k =>
    (broadcastTo_a1_ab_apply _ _ p k).trans ((shapeCast_a_a1_apply _ _ p 0).trans
      ((Ideal.multiReduction_maximumf_single z 0xFF800000#32 reduces_S5000x2_S5000 (.inl rfl) rfl (ix1 p)).trans
        (congrArg (fun g => (Finset.univ : Finset (Fin 2)).fold max (Ideal.ofBits .f32 0xFF800000#32) g) (funext fun k' => congrArg z (lift_row p k')))))
  generalize broadcastTo S5000x2 (shapeCast S5000x1 (multiReduction .maximumf [1] S5000 z 0xFF800000#32 reduces_S5000x2_S5000 (.inl rfl) rfl) shapeCasts_S5000_S5000x1) broadcasts_S5000x1_S5000x2 = m at hM ⊢
  have hE : ∀ k : Fin 2, exp (subf z m) (ix2 p k) = Ideal.exp (z (ix2 p k) - rowMax (fun k => z (ix2 p k))) := fun k =>
    congrArg (fun t => Ideal.exp (z (ix2 p k) - t)) (hM k)
  have hS : broadcastTo S5000x2 (shapeCast S5000x1 (multiReduction .add [1] S5000 (exp (subf z m)) 0x00000000#32 reduces_S5000x2_S5000 (.inl rfl) rfl) shapeCasts_S5000_S5000x1) broadcasts_S5000x1_S5000x2 (ix2 p q)
      = ∑ k : Fin 2, Ideal.exp (z (ix2 p k) - rowMax (fun k => z (ix2 p k))) :=
    (broadcastTo_a1_ab_apply _ _ p q).trans ((shapeCast_a_a1_apply _ _ p 0).trans
      ((Ideal.multiReduction_add_single (exp (subf z m)) 0x00000000#32 reduces_S5000x2_S5000 (.inl rfl) rfl (ix1 p)).trans
        (Finset.sum_congr rfl fun k _ => (congrArg (exp (subf z m)) (lift_row p k)).trans (hE k))))
  exact congrArg₂ Ideal.div (hE q) hS

/-- The body's stored value at entry (p, q) of the block: the softmax of row p of x + b, b the one bias row. -/
theorem pay2_apply (x : FVec Ideal S5000x2 .f32) (b : FVec Ideal S1x2 .f32) (p : Fin 5000) (q : Fin 2) :
    k2_pay1 (F := Ideal) x b (ix2 p q) = softmax2 (fun k => x (ix2 p k) + b (ix2 (0 : Fin 1) k)) q := by
  have e1 : shapeCast S5000x2 x shapeCasts_S5000x2_S5000x2 = x := shapeCast_self _ _
  have e2 : shapeCast S1x2 b shapeCasts_S1x2_S1x2 = b := shapeCast_self _ _
  unfold k2_pay1
  simp only [e1, e2]
  refine (softmax_block _ p q).trans ?_
  exact congrArg (fun g => softmax2 g q) (funext fun k => congrArg (x (ix2 p k) + ·) (broadcastTo_1b_ab_apply b broadcasts_S1x2_S5000x2 p k))

/-- The last stage as one function of the aggregated logits Y and the bias row B: row r of the result is the softmax of
    row r of Y + B. -/
def softmaxK (Y : FVec Ideal S50000x2 .f32) (B : FVec Ideal S1x2 .f32) : FVec Ideal S50000x2 .f32 :=
  fun i => softmax2 (fun k => Y (ix2 (i 0) k) + B (ix2 (0 : Fin 1) k)) (i 1)

variable (V : (c : Dev nD) → (b : Ref sig .tc) → Buf (Elt Ideal) ((c : Thread nD τ).loc b))

/-- The index maps of the region's three windows over the grid: the row-blocked windows sit at block (t, 0), the bias
    row at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of `softmaxK` of the region's input arrays. -/
theorem flushed2_eq (c : Dev nD) (t : Fin cfg2.N) :
    (dat2 V c).flushed 2 t = ((cfg2.win 2).blk t).view.read (Elt Ideal) (softmaxK (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S5000x2) hz2, View.ld_unit_zero (S := S1x2) hz2]
  funext j
  obtain ⟨p, q, rfl⟩ : ∃ (p : Fin 5000) (q : Fin 2), j = ix2 p q := ⟨j 0, j 1, eq_ix2 j⟩
  obtain ⟨f00, f01, f10, f11, f20, f21⟩ := idx_facts2 t
  show k2_pay1 (F := Ideal) (iblk2 V c 0 t) (iblk2 V c 1 t) (ix2 p q)
    = softmaxK (V c (Pipeline.arrRef spec2 0)) (V c (Pipeline.arrRef spec2 1)) (((cfg2.win 2).blk t).view.emb (ix2 p q))
  refine (pay2_apply _ _ p q).trans ?_
  unfold softmaxK
  have hY : ∀ k : Fin 2, ((cfg2.win 0).blk t).view.emb (ix2 p k) = ix2 ((((cfg2.win 2).blk t).view.emb (ix2 p q)) 0) k := fun k => by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 2 + 1 * k.val = k.val; omega
  have hB : ∀ k : Fin 2, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 2 + 1 * k.val = k.val; omega
  have hq : q = (((cfg2.win 2).blk t).view.emb (ix2 p q)) 1 := by
    apply Fin.ext
    show q.val = win2_2.index t (1 : Fin 2) * 2 + 1 * q.val; omega
  refine (congrArg (fun g => softmax2 g q) (funext fun k => ?_)).trans (congrArg (softmax2 _) hq)
  exact congrArg₂ (· + ·)
    (congrArg (V c (Pipeline.arrRef spec2 0) : FVec Ideal S50000x2 .f32) (hY k))
    (congrArg (V c (Pipeline.arrRef spec2 1) : FVec Ideal S1x2 .f32) (hB k))

/-- An index of the result array lies in grid point t's block iff each coordinate lies in the block's range on its axis. -/
theorem mem_blk2 (t : Fin cfg2.N) (i : S50000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v62).slice (win2_2.rect t)).set ↔ _
  rw [View.set_slice_whole, Rect.mem_set_unit]
  exact Iff.rfl

/-- Row r of the result array is written back by grid point r / 5000. -/
theorem cover2 (i : S50000x2.Idx) : ∃ t : Fin cfg2.N, (cfg2.win 2).flush t = true ∧ i ∈ ((cfg2.win 2).blk t).view.set := by
  have hi0 : (i 0).val < 50000 := (i 0).isLt
  have hi1 : (i 1).val < 2 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, f20, f21⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- After the third region the result array holds `softmaxK` of the region's two input arrays as it found them. -/
theorem final2 (c : Dev nD) :
    (dat2 V c).arrAt 2 cfg2.N = softmaxK (V c (Pipeline.arrRef spec2 0)) (V c (Pipeline.arrRef spec2 1)) :=
  (dat2 V c).arrAt_eq_of_cover 2 _ (fun t _ => flushed2_eq V c t) cover2

end Cert.KernelIdeal.Hand

end
-- ==== Proof.LibBroadcastInDim.lean ====
/-
  A host `broadcast_in_dim` read at an explicit index, for the shapes a bias row and a kept row-reduction take:
  a vector laid out as a column or as a row, a column repeated along the columns, a row repeated along the rows, and a
  scalar repeated everywhere. Stated over any element type.
-/
import Idealize.ShloMosaic.Lib.Pipeline.Value
import Idealize.ShloMosaic.Lib.ValueIdx

namespace Idealize.ShloMosaic.ValueIdx

variable {α : Type}

/-- `[a]` laid out as the column `[a, 1]`: entry `(p, u)` is the vector's entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- `[b]` laid out as the row `[1, b]`: entry `(u, c)` is the vector's entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply _ h v (ix2 u c) (ix1 c) (fun ax => match ax with
    | ⟨0, _⟩ => by
      show c.val = if b = 1 then 0 else c.val
      split
      · have := c.isLt; omega
      · rfl)

/-- The column `[a, 1]` repeated to `[a, b]`: entry `(p, c)` is the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => rfl)

/-- The row `[1, b]` repeated to `[a, b]`: entry `(p, c)` is the row's entry in column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

/-- A scalar repeated to any shape: every entry is the scalar. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun ax => ax.elim0)

end Idealize.ShloMosaic.ValueIdx
-- ==== Proof.RefStages.lean ====
/-
  The reference's two dense products and its softmax stage read entry by entry over the extended reals.
  The host's matrix product at (p, q) is the sum over the inner index of the products of entries; the first one runs over
  the 192 columns of the two feature tables joined side by side, which is the sum over the first table's 64 columns plus
  the sum over the second table's 128, the weight matrix's rows taken from row 0 and from row 64. The bias of either layer
  is a vector laid out as a row and repeated along the rows. The softmax stage takes each row's maximum from -∞ and then
  once more against -∞, which changes nothing.
-/
import proofs.«134711_j5583457485496_2_alg».proof.Proof.HostSpec
import proofs.«134711_j5583457485496_2_alg».proof.Proof.SoftmaxSpec
import proofs.«134711_j5583457485496_2_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Cert.Spec

theorem lhs0_r1 (i : S50000x512.Idx) (κ : dot_S50000x192_S192x512_S50000x512_1_0_0_1_n_n.contr.Idx) : (dot_S50000x192_S192x512_S50000x512_1_0_0_1_n_n.lhsIdx i κ 0).val = (i 0).val := by
  unfold DotDims.lhsIdx
  rw [dif_neg (show ¬(0 : Fin S50000x192.rank) ∈ dot_S50000x192_S192x512_S50000x512_1_0_0_1_n_n.lhsBatch by decide), dif_pos (show (0 : Fin S50000x192.rank) ∈ dot_S50000x192_S192x512_S50000x512_1_0_0_1_n_n.lhsNonContracting by decide)]
  rfl
theorem lhs1_r1 (i : S50000x512.Idx) (κ : dot_S50000x192_S192x512_S50000x512_1_0_0_1_n_n.contr.Idx) : (dot_S50000x192_S192x512_S50000x512_1_0_0_1_n_n.lhsIdx i κ 1).val = (κ ⟨0, by decide⟩).val :=
  dot_S50000x192_S192x512_S50000x512_1_0_0_1_n_n.lhsIdx_val_of_single rfl i κ
theorem rhs0_r1 (i : S50000x512.Idx) (κ : dot_S50000x192_S192x512_S50000x512_1_0_0_1_n_n.contr.Idx) : (dot_S50000x192_S192x512_S50000x512_1_0_0_1_n_n.rhsIdx i κ 0).val = (κ ⟨0, by decide⟩).val :=
  dot_S50000x192_S192x512_S50000x512_1_0_0_1_n_n.rhsIdx_val_of_single rfl i κ
theorem rhs1_r1 (i : S50000x512.Idx) (κ : dot_S50000x192_S192x512_S50000x512_1_0_0_1_n_n.contr.Idx) : (dot_S50000x192_S192x512_S50000x512_1_0_0_1_n_n.rhsIdx i κ 1).val = (i 1).val := by
  unfold DotDims.rhsIdx
  rw [dif_neg (show ¬(1 : Fin S192x512.rank) ∈ dot_S50000x192_S192x512_S50000x512_1_0_0_1_n_n.rhsBatch by decide), dif_pos (show (1 : Fin S192x512.rank) ∈ dot_S50000x192_S192x512_S50000x512_1_0_0_1_n_n.rhsNonContracting by decide)]
  rfl

/-- Entry (p, q) of the host's product of a 50000×192 matrix with a 192×512 matrix over the extended reals: the sum over the
    192 inner positions of row p times column q. -/
theorem dot_r1 (x : FVec Ideal S50000x192 .f32) (w : FVec Ideal S192x512 .f32) (p : Fin 50000) (q : Fin 512) :
    Host.dotGeneral dot_S50000x192_S192x512_S50000x512_1_0_0_1_n_n none x w (ix2 p q) = ∑ k : Fin 192, x (ix2 p k) * w (ix2 k q) := by
  simp only [Host.dotGeneral]
  rw [Ideal.dotGeneral_apply, ← Equiv.sum_comp (ValueIdx.contrEquiv1 dot_S50000x192_S192x512_S50000x512_1_0_0_1_n_n 192 rfl rfl).symm]
  refine Finset.sum_congr rfl fun k _ => ?_
  have hk := ValueIdx.contrEquiv1_symm_val dot_S50000x192_S192x512_S50000x512_1_0_0_1_n_n 192 rfl rfl k
  have el : dot_S50000x192_S192x512_S50000x512_1_0_0_1_n_n.lhsIdx (ix2 p q) ((ValueIdx.contrEquiv1 dot_S50000x192_S192x512_S50000x512_1_0_0_1_n_n 192 rfl rfl).symm k) = ix2 p k := funext fun a => Fin.ext (by
    match a with
    | ⟨0, _⟩ => exact lhs0_r1 _ _
    | ⟨1, _⟩ => exact (lhs1_r1 _ _).trans hk)
  have er : dot_S50000x192_S192x512_S50000x512_1_0_0_1_n_n.rhsIdx (ix2 p q) ((ValueIdx.contrEquiv1 dot_S50000x192_S192x512_S50000x512_1_0_0_1_n_n 192 rfl rfl).symm k) = ix2 k q := funext fun a => Fin.ext (by
    match a with
    | ⟨0, _⟩ => exact (rhs0_r1 _ _).trans hk
    | ⟨1, _⟩ => exact rhs1_r1 _ _)
  rw [el, er]

theorem lhs0_r2 (i : S50000x2.Idx) (κ : dot_S50000x512_S512x2_S50000x2_1_0_0_1_n_n.contr.Idx) : (dot_S50000x512_S512x2_S50000x2_1_0_0_1_n_n.lhsIdx i κ 0).val = (i 0).val := by
  unfold DotDims.lhsIdx
  rw [dif_neg (show ¬(0 : Fin S50000x512.rank) ∈ dot_S50000x512_S512x2_S50000x2_1_0_0_1_n_n.lhsBatch by decide), dif_pos (show (0 : Fin S50000x512.rank) ∈ dot_S50000x512_S512x2_S50000x2_1_0_0_1_n_n.lhsNonContracting by decide)]
  rfl
theorem lhs1_r2 (i : S50000x2.Idx) (κ : dot_S50000x512_S512x2_S50000x2_1_0_0_1_n_n.contr.Idx) : (dot_S50000x512_S512x2_S50000x2_1_0_0_1_n_n.lhsIdx i κ 1).val = (κ ⟨0, by decide⟩).val :=
  dot_S50000x512_S512x2_S50000x2_1_0_0_1_n_n.lhsIdx_val_of_single rfl i κ
theorem rhs0_r2 (i : S50000x2.Idx) (κ : dot_S50000x512_S512x2_S50000x2_1_0_0_1_n_n.contr.Idx) : (dot_S50000x512_S512x2_S50000x2_1_0_0_1_n_n.rhsIdx i κ 0).val = (κ ⟨0, by decide⟩).val :=
  dot_S50000x512_S512x2_S50000x2_1_0_0_1_n_n.rhsIdx_val_of_single rfl i κ
theorem rhs1_r2 (i : S50000x2.Idx) (κ : dot_S50000x512_S512x2_S50000x2_1_0_0_1_n_n.contr.Idx) : (dot_S50000x512_S512x2_S50000x2_1_0_0_1_n_n.rhsIdx i κ 1).val = (i 1).val := by
  unfold DotDims.rhsIdx
  rw [dif_neg (show ¬(1 : Fin S512x2.rank) ∈ dot_S50000x512_S512x2_S50000x2_1_0_0_1_n_n.rhsBatch by decide), dif_pos (show (1 : Fin S512x2.rank) ∈ dot_S50000x512_S512x2_S50000x2_1_0_0_1_n_n.rhsNonContracting by decide)]
  rfl

/-- Entry (p, q) of the host's product of a 50000×512 matrix with a 512×2 matrix over the extended reals: the sum over the
    512 inner positions of row p times column q. -/
theorem dot_r2 (x : FVec Ideal S50000x512 .f32) (w : FVec Ideal S512x2 .f32) (p : Fin 50000) (q : Fin 2) :
    Host.dotGeneral dot_S50000x512_S512x2_S50000x2_1_0_0_1_n_n none x w (ix2 p q) = ∑ k : Fin 512, x (ix2 p k) * w (ix2 k q) := by
  simp only [Host.dotGeneral]
  rw [Ideal.dotGeneral_apply, ← Equiv.sum_comp (ValueIdx.contrEquiv1 dot_S50000x512_S512x2_S50000x2_1_0_0_1_n_n 512 rfl rfl).symm]
  refine Finset.sum_congr rfl fun k _ => ?_
  have hk := ValueIdx.contrEquiv1_symm_val dot_S50000x512_S512x2_S50000x2_1_0_0_1_n_n 512 rfl rfl k
  have el : dot_S50000x512_S512x2_S50000x2_1_0_0_1_n_n.lhsIdx (ix2 p q) ((ValueIdx.contrEquiv1 dot_S50000x512_S512x2_S50000x2_1_0_0_1_n_n 512 rfl rfl).symm k) = ix2 p k := funext fun a => Fin.ext (by
    match a with
    | ⟨0, _⟩ => exact lhs0_r2 _ _
    | ⟨1, _⟩ => exact (lhs1_r2 _ _).trans hk)
  have er : dot_S50000x512_S512x2_S50000x2_1_0_0_1_n_n.rhsIdx (ix2 p q) ((ValueIdx.contrEquiv1 dot_S50000x512_S512x2_S50000x2_1_0_0_1_n_n 512 rfl rfl).symm k) = ix2 k q := funext fun a => Fin.ext (by
    match a with
    | ⟨0, _⟩ => exact (rhs0_r2 _ _).trans hk
    | ⟨1, _⟩ => exact rhs1_r2 _ _)
  rw [el, er]

/-- Columns 0 … 63 of the joined table are the first table's. -/
theorem concat_left (u : FVec Ideal S50000x64 .f32) (x : FVec Ideal S50000x128 .f32) (p : Fin 50000) (k : Fin 64) :
    concatenate S50000x192 1 [⟨S50000x64, u⟩, ⟨S50000x128, x⟩] concatenates_S50000x64_S50000x128_S50000x192_d1 (ix2 p (Fin.castAdd 128 k)) = u (ix2 p k) :=
  concatenate_pair_apply_left (1 : Fin S50000x192.rank) u x concatenates_S50000x64_S50000x128_S50000x192_d1 (ix2 p (Fin.castAdd 128 k)) rfl (ix2 p k)
    (fun b => match b with | ⟨0, _⟩ => rfl | ⟨1, _⟩ => rfl)

/-- Columns 64 … 191 of the joined table are the second table's. -/
theorem concat_right (u : FVec Ideal S50000x64 .f32) (x : FVec Ideal S50000x128 .f32) (p : Fin 50000) (k : Fin 128) :
    concatenate S50000x192 1 [⟨S50000x64, u⟩, ⟨S50000x128, x⟩] concatenates_S50000x64_S50000x128_S50000x192_d1 (ix2 p (Fin.natAdd 64 k)) = x (ix2 p k) :=
  concatenate_pair_apply_right (1 : Fin S50000x192.rank) u x concatenates_S50000x64_S50000x128_S50000x192_d1 (ix2 p (Fin.natAdd 64 k)) rfl rfl (ix2 p k)
    (fun b hb => match b, hb with | ⟨0, _⟩, _ => rfl | ⟨1, _⟩, hb => absurd rfl hb)
    (by show k.val + 64 = 64 + k.val; omega)

/-- The first dense product at (p, q): the sum over the first table's 64 columns against rows 0 … 63 of W1 plus the sum
    over the second table's 128 columns against rows 64 … 191. -/
theorem dense1_apply (x1 : FVec Ideal S50000x128 .f32) (x2 : FVec Ideal S50000x64 .f32) (x3 : FVec Ideal S192x512 .f32) (p : Fin 50000) (q : Fin 512) :
    Spec.dense1 (F := Ideal) x1 x2 x3 (ix2 p q)
      = (∑ k : Fin 64, x2 (ix2 p k) * x3 (ix2 (Fin.castAdd 128 k) q)) + ∑ k : Fin 128, x1 (ix2 p k) * x3 (ix2 (Fin.natAdd 64 k) q) := by
  unfold Spec.dense1
  refine (dot_r1 _ x3 p q).trans ?_
  refine (Fin.sum_univ_add (a := 64) (b := 128) _).trans ?_
  refine congrArg₂ (· + ·) (Finset.sum_congr rfl fun k _ => ?_) (Finset.sum_congr rfl fun k _ => ?_)
  · exact congrArg (· * x3 (ix2 (Fin.castAdd 128 k) q)) (concat_left x2 x1 p k)
  · exact congrArg (· * x3 (ix2 (Fin.natAdd 64 k) q)) (concat_right x2 x1 p k)

/-- The second dense product at (p, q): Σ_{k < 512} max (h(p, k) + b1(k), 0) · W2(k, q). -/
theorem dense2_apply (h : FVec Ideal S50000x512 .f32) (x4 : FVec Ideal S512 .f32) (x5 : FVec Ideal S512x2 .f32) (p : Fin 50000) (q : Fin 2) :
    Spec.dense2 (F := Ideal) h x4 x5 (ix2 p q)
      = ∑ k : Fin 512, max (h (ix2 p k) + x4 (ix1 k)) (Ideal.ofBits .f32 0x00000000#32) * x5 (ix2 k q) := by
  unfold Spec.dense2
  refine (dot_r2 _ x5 p q).trans ?_
  refine Finset.sum_congr rfl fun k _ => ?_
  refine congrArg (· * x5 (ix2 k q)) ?_
  refine congrArg₂ (fun a b => max (h (ix2 p k) + a) b) ?_ ?_
  · exact (broadcastInDim_1b_ab_apply _ bcast_S1x512_S50000x512_0_1 p k).trans (broadcastInDim_b_1b_apply x4 bcast_S512_S1x512_1 0 k)
  · exact broadcastInDim_scalar_apply _ bcast_S_S50000x512 (ix2 p k)

/-- Row p of a 50000 × 2 table with column k put back in: entry (p, k). -/
theorem lift_row (p : Fin 50000) (k : Fin 2) (h : S50000x2.Reduces [1] S50000) : h.lift (ix1 p) k = ix2 p k :=
  funext fun a => Fin.ext (by match a with | ⟨0, _⟩ => rfl | ⟨1, _⟩ => rfl)

/-- The host's row softmax of a table z, read at entry (p, q). -/
theorem softmax_host (z : FVec Ideal S50000x2 .f32) (p : Fin 50000) (q : Fin 2) :
    (Host.divf (Host.exp (subf z (broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x2_S50000_d1 h_S_)))))) (broadcastInDim S50000x2 ![0, 1] bcast_S50000x1_S50000x2_0_1 (broadcastInDim S50000x1 ![0] bcast_S50000_S50000x1_0 (Host.reduceAdd (Host.exp (subf z (broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x2_S50000_d1 h_S_)))))) (constant S_ .f32 0x00000000#32) reducesTo_S50000x2_S50000_d1 h_S_))) : FVec Ideal S50000x2 .f32) (ix2 p q)
      = softmax2 (fun k => z (ix2 p k)) q := by
  have hred : S50000x2.Reduces [1] S50000 := by decide
  have hM : ∀ k : Fin 2, broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x2_S50000_d1 h_S_))) (ix2 p k)
      = rowMax (fun k => z (ix2 p k)) := fun k =>
    (broadcastInDim_a1_ab_apply _ bcast_S50000x1_S50000x2_0_1 p k).trans ((broadcastInDim_a_a1_apply _ bcast_S50000_S50000x1_0 p 0).trans
      ((congrArg₂ max (broadcastInDim_scalar_apply _ bcast_S_S50000 (ix1 p))
          ((Host.reduce_eq_fold_single FloatOps.maximumf z (constant S_ .f32 0xFF800000#32) reducesTo_S50000x2_S50000_d1 hred h_S_ (ix1 p)).trans
            (congrArg (fun g => (Finset.univ : Finset (Fin 2)).fold max (Ideal.ofBits .f32 0xFF800000#32) g) (funext fun k' => congrArg z (lift_row p k' hred))))).trans
        (max_init_rowMax _)))
  generalize broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x2_S50000_d1 h_S_))) = mm at hM ⊢
  have hE : ∀ k : Fin 2, Host.exp (subf z mm) (ix2 p k) = Ideal.exp (z (ix2 p k) - rowMax (fun k => z (ix2 p k))) := fun k =>
    congrArg (fun t => Ideal.exp (z (ix2 p k) - t)) (hM k)
  have hS : broadcastInDim S50000x2 ![0, 1] bcast_S50000x1_S50000x2_0_1 (broadcastInDim S50000x1 ![0] bcast_S50000_S50000x1_0 (Host.reduceAdd (Host.exp (subf z mm)) (constant S_ .f32 0x00000000#32) reducesTo_S50000x2_S50000_d1 h_S_)) (ix2 p q)
      = ∑ k : Fin 2, Ideal.exp (z (ix2 p k) - rowMax (fun k => z (ix2 p k))) :=
    (broadcastInDim_a1_ab_apply _ bcast_S50000x1_S50000x2_0_1 p q).trans ((broadcastInDim_a_a1_apply _ bcast_S50000_S50000x1_0 p 0).trans
      ((Ideal.hostReduceAdd_single reducesTo_S50000x2_S50000_d1 hred (Host.exp (subf z mm)) (Ideal.ofBits .f32 0x00000000#32) (ix1 p)).trans
        ((congrArg (· + _) Ideal.ofBits_zero_f32).trans ((zero_add _).trans
          (Finset.sum_congr rfl fun k _ => (congrArg (Host.exp (subf z mm)) (lift_row p k hred)).trans (hE k))))))
  have key : Ideal.div (Host.exp (subf z mm) (ix2 p q))
      (broadcastInDim S50000x2 ![0, 1] bcast_S50000x1_S50000x2_0_1 (broadcastInDim S50000x1 ![0] bcast_S50000_S50000x1_0 (Host.reduceAdd (Host.exp (subf z mm)) (constant S_ .f32 0x00000000#32) reducesTo_S50000x2_S50000_d1 h_S_)) (ix2 p q))
      = Ideal.div (Ideal.exp (z (ix2 p q) - rowMax (fun k => z (ix2 p k)))) (∑ k : Fin 2, Ideal.exp (z (ix2 p k) - rowMax (fun k => z (ix2 p k)))) :=
    congrArg₂ Ideal.div (hE q) hS
  unfold Host.divf softmax2
  simp only [Ideal.hostDivf_def]
  exact key

/-- The reference's last stage at (p, q): the softmax of row p of y + b2 at column q. -/
theorem biasSoftmax_apply (y : FVec Ideal S50000x2 .f32) (x6 : FVec Ideal S2 .f32) (p : Fin 50000) (q : Fin 2) :
    Spec.biasSoftmax (F := Ideal) y x6 (ix2 p q) = softmax2 (fun k => y (ix2 p k) + x6 (ix1 k)) q := by
  unfold Spec.biasSoftmax
  refine (softmax_host _ p q).trans ?_
  exact congrArg (fun g => softmax2 g q) (funext fun k =>
    congrArg (y (ix2 p k) + ·) ((broadcastInDim_1b_ab_apply _ bcast_S1x2_S50000x2_0_1 p k).trans (broadcastInDim_b_1b_apply x6 bcast_S2_S1x2_1 0 k)))

end Cert.ReferenceIdeal.Hand

end
-- ==== Proof.Bridge.lean ====
/-
  The three places where the kernel computes what the reference computes in another arrangement, compared entry by entry
  over the extended reals.
  * First layer: the reference multiplies the joined table [U | X] by W1; the kernel adds U · W1[0:64] and X · W1[64:192].
    A sum over 192 inner positions is the sum over the first 64 plus the sum over the last 128 — only associativity of
    addition, which the extended reals have.
  * Second layer: both multiply relu (H + b1) by W2; the reference repeats the bias vector along the rows, the kernel
    reads it from a one-row table.
  * Softmax: both take exp (z - max z) / Σ exp (z - max z) per row of z = Y + b2.
-/
import proofs.«134711_j5583457485496_2_alg».proof.Proof.Region0
import proofs.«134711_j5583457485496_2_alg».proof.Proof.Region1
import proofs.«134711_j5583457485496_2_alg».proof.Proof.Region2
import proofs.«134711_j5583457485496_2_alg».proof.Proof.RefStages

noncomputable section

namespace Cert.KernelIdeal.Hand

open Cert.KernelIdeal Cert.KernelIdeal.Gen Idealize.ShloMosaic Idealize.ShloMosaic.TcCoe Idealize.SL.Sem
open Idealize.ShloMosaic.ValueIdx
open Cert.ReferenceIdeal (Spec.dense1 Spec.dense2 Spec.biasSoftmax)
open Cert.Spec

/-- The reference's first dense product is the kernel's, on the two halves of W1. -/
theorem dense1_eq (x1 : FVec Ideal S50000x128 .f32) (x2 : FVec Ideal S50000x64 .f32) (x3 : FVec Ideal S192x512 .f32) :
    Spec.dense1 (F := Ideal) x1 x2 x3
      = dense1K x2 x1 (extractStridedSlice S64x512 ![0, 0] x3 slices_S192x512_S64x512_0_0) (extractStridedSlice S128x512 ![64, 0] x3 slices_S192x512_S128x512_64_0) := by
  funext i
  obtain ⟨p, q, rfl⟩ : ∃ (p : Fin 50000) (q : Fin 512), i = ix2 p q := ⟨i 0, i 1, eq_ix2 i⟩
  refine (Cert.ReferenceIdeal.Hand.dense1_apply x1 x2 x3 p q).trans ?_
  unfold dense1K
  refine congrArg₂ (· + ·) (Finset.sum_congr rfl fun k _ => ?_) (Finset.sum_congr rfl fun k _ => ?_)
  · exact congrArg (x2 (ix2 p k) * ·) (slice2_axis0_apply 0 x3 slices_S192x512_S64x512_0_0 k q (Fin.castAdd 128 k) (by show k.val = 0 + k.val; omega)).symm
  · exact congrArg (x1 (ix2 p k) * ·) (slice2_axis0_apply 64 x3 slices_S192x512_S128x512_64_0 k q (Fin.natAdd 64 k) rfl).symm

/-- The reference's second dense product is the kernel's, the bias vector read as a one-row table. -/
theorem dense2_eq (h : FVec Ideal S50000x512 .f32) (x4 : FVec Ideal S512 .f32) (x5 : FVec Ideal S512x2 .f32) :
    Spec.dense2 (F := Ideal) h x4 x5 = dense2K h (shapeCast S1x512 x4 shapeCasts_S512_S1x512) x5 := by
  funext i
  obtain ⟨p, q, rfl⟩ : ∃ (p : Fin 50000) (q : Fin 2), i = ix2 p q := ⟨i 0, i 1, eq_ix2 i⟩
  refine (Cert.ReferenceIdeal.Hand.dense2_apply h x4 x5 p q).trans ?_
  unfold dense2K
  refine Finset.sum_congr rfl fun k _ => ?_
  exact congrArg (fun t => max (h (ix2 p k) + t) (Ideal.ofBits .f32 0x00000000#32) * x5 (ix2 k q)) (shapeCast_a_1a_apply x4 shapeCasts_S512_S1x512 0 k).symm

/-- The reference's softmax stage is the kernel's, the bias vector read as a one-row table. -/
theorem biasSoftmax_eq (y : FVec Ideal S50000x2 .f32) (x6 : FVec Ideal S2 .f32) :
    Spec.biasSoftmax (F := Ideal) y x6 = softmaxK y (shapeCast S1x2 x6 shapeCasts_S2_S1x2) := by
  funext i
  obtain ⟨p, q, rfl⟩ : ∃ (p : Fin 50000) (q : Fin 2), i = ix2 p q := ⟨i 0, i 1, eq_ix2 i⟩
  refine (Cert.ReferenceIdeal.Hand.biasSoftmax_apply y x6 p q).trans ?_
  unfold softmaxK
  exact congrArg (fun g => softmax2 g q) (funext fun k => congrArg (y (ix2 p k) + ·) (shapeCast_a_1a_apply x6 shapeCasts_S2_S1x2 0 k).symm)

end Cert.KernelIdeal.Hand

end
-- ==== Proof.KerResult.lean ====
/-
  The idealized kernel program's result as a function of its seven arguments, over the extended reals, and its equality
  with the reference's function.
  Each region's product array is, after the region, one whole-array function of the region's input arrays as it found them
  (the first layer's dense product, the second layer's, the row softmax); each input array is what the host operations
  before the region left (the boundary facts). Chaining the six steps gives
      softmax (A (dense2 (A (dense1 U X W1[0:64] W1[64:192])) b1 W2) + b2) ,
  A the shared aggregation step, and the three comparisons of the dense products and the softmax with the reference's
  turn this into the reference's function of the same arguments.
-/
import proofs.«134711_j5583457485496_2_alg».proof.Proof.KerValue
import proofs.«134711_j5583457485496_2_alg».proof.Proof.Bridge

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal (Spec.srcIdx Spec.dstIdx Spec.edgeWeight Spec.aggregate512 Spec.aggregate2 Spec.dense1 Spec.dense2 Spec.biasSoftmax Spec.result)

variable (m : (ℓ : Loc nD τ sig) → Buf (Elt Ideal) ℓ) (ρ : Dev nD → PrngReg)

/-- The first region's product array at its exit: the first layer's dense product of the arguments. -/
theorem dense_at4 (c : Dev nD) : W4 m ρ c (Proc.devRef .tc main_v32) = dense1K (m ((c : Thread nD τ).loc main_arg2)) (m ((c : Thread nD τ).loc main_arg1)) (extractStridedSlice S64x512 ![0, 0] (m ((c : Thread nD τ).loc main_arg3)) slices_S192x512_S64x512_0_0) (extractStridedSlice S128x512 ![64, 0] (m ((c : Thread nD τ).loc main_arg3)) slices_S192x512_S128x512_64_0) := by
  refine (W4_arr m ρ c 4).trans ((final0 (V3 m ρ) c).trans ?_)
  have e0 : (V3 m ρ c (Pipeline.arrRef spec0 0) : FVec Ideal S50000x64 .f32) = (m ((c : Thread nD τ).loc main_arg2)) := a2_at3 m ρ c
  have e1 : (V3 m ρ c (Pipeline.arrRef spec0 1) : FVec Ideal S50000x128 .f32) = (m ((c : Thread nD τ).loc main_arg1)) := a1_at3 m ρ c
  have e2 : (V3 m ρ c (Pipeline.arrRef spec0 2) : FVec Ideal S64x512 .f32) = extractStridedSlice S64x512 ![0, 0] (m ((c : Thread nD τ).loc main_arg3)) slices_S192x512_S64x512_0_0 := wu_at3 m ρ c
  have e3 : (V3 m ρ c (Pipeline.arrRef spec0 3) : FVec Ideal S128x512 .f32) = extractStridedSlice S128x512 ![64, 0] (m ((c : Thread nD τ).loc main_arg3)) slices_S192x512_S128x512_64_0 := wx_at3 m ρ c
  rw [e0, e1, e2, e3]

/-- The second region's product array at its exit. -/
theorem dense_at6 (c : Dev nD) : W6 m ρ c (Proc.devRef .tc main_v47) = dense2K (Spec.aggregate512 (F := Ideal) (m ((c : Thread nD τ).loc main_arg0)) (dense1K (m ((c : Thread nD τ).loc main_arg2)) (m ((c : Thread nD τ).loc main_arg1)) (extractStridedSlice S64x512 ![0, 0] (m ((c : Thread nD τ).loc main_arg3)) slices_S192x512_S64x512_0_0) (extractStridedSlice S128x512 ![64, 0] (m ((c : Thread nD τ).loc main_arg3)) slices_S192x512_S128x512_64_0))) (shapeCast S1x512 (m ((c : Thread nD τ).loc main_arg4)) shapeCasts_S512_S1x512) (m ((c : Thread nD τ).loc main_arg5)) := by
  refine (W6_arr m ρ c 3).trans ((final1 (V5 m ρ) c).trans ?_)
  have e0 : (V5 m ρ c (Pipeline.arrRef spec1 0) : FVec Ideal S50000x512 .f32) = Spec.aggregate512 (F := Ideal) (m ((c : Thread nD τ).loc main_arg0)) (dense1K (m ((c : Thread nD τ).loc main_arg2)) (m ((c : Thread nD τ).loc main_arg1)) (extractStridedSlice S64x512 ![0, 0] (m ((c : Thread nD τ).loc main_arg3)) slices_S192x512_S64x512_0_0) (extractStridedSlice S128x512 ![64, 0] (m ((c : Thread nD τ).loc main_arg3)) slices_S192x512_S128x512_64_0)) := (agg_at5 m ρ c).trans (congrArg (Spec.aggregate512 (F := Ideal) (m ((c : Thread nD τ).loc main_arg0))) (dense_at4 m ρ c))
  have e1 : (V5 m ρ c (Pipeline.arrRef spec1 1) : FVec Ideal S1x512 .f32) = shapeCast S1x512 (m ((c : Thread nD τ).loc main_arg4)) shapeCasts_S512_S1x512 := bias_at5 m ρ c
  have e2 : (V5 m ρ c (Pipeline.arrRef spec1 2) : FVec Ideal S512x2 .f32) = (m ((c : Thread nD τ).loc main_arg5)) := a5_at5 m ρ c
  rw [e0, e1, e2]

/-- The third region's result array at its exit: the kernel's result as a function of the arguments. -/
theorem out_at8 (c : Dev nD) : W8 m ρ c (Proc.devRef .tc main_v62) = softmaxK (Spec.aggregate2 (F := Ideal) (m ((c : Thread nD τ).loc main_arg0)) (dense2K (Spec.aggregate512 (F := Ideal) (m ((c : Thread nD τ).loc main_arg0)) (dense1K (m ((c : Thread nD τ).loc main_arg2)) (m ((c : Thread nD τ).loc main_arg1)) (extractStridedSlice S64x512 ![0, 0] (m ((c : Thread nD τ).loc main_arg3)) slices_S192x512_S64x512_0_0) (extractStridedSlice S128x512 ![64, 0] (m ((c : Thread nD τ).loc main_arg3)) slices_S192x512_S128x512_64_0))) (shapeCast S1x512 (m ((c : Thread nD τ).loc main_arg4)) shapeCasts_S512_S1x512) (m ((c : Thread nD τ).loc main_arg5)))) (shapeCast S1x2 (m ((c : Thread nD τ).loc main_arg6)) shapeCasts_S2_S1x2) := by
  refine (W8_arr m ρ c 2).trans ((final2 (V7 m ρ) c).trans ?_)
  have e0 : (V7 m ρ c (Pipeline.arrRef spec2 0) : FVec Ideal S50000x2 .f32) = Spec.aggregate2 (F := Ideal) (m ((c : Thread nD τ).loc main_arg0)) (dense2K (Spec.aggregate512 (F := Ideal) (m ((c : Thread nD τ).loc main_arg0)) (dense1K (m ((c : Thread nD τ).loc main_arg2)) (m ((c : Thread nD τ).loc main_arg1)) (extractStridedSlice S64x512 ![0, 0] (m ((c : Thread nD τ).loc main_arg3)) slices_S192x512_S64x512_0_0) (extractStridedSlice S128x512 ![64, 0] (m ((c : Thread nD τ).loc main_arg3)) slices_S192x512_S128x512_64_0))) (shapeCast S1x512 (m ((c : Thread nD τ).loc main_arg4)) shapeCasts_S512_S1x512) (m ((c : Thread nD τ).loc main_arg5))) := (agg_at7 m ρ c).trans (congrArg (Spec.aggregate2 (F := Ideal) (m ((c : Thread nD τ).loc main_arg0))) (dense_at6 m ρ c))
  have e1 : (V7 m ρ c (Pipeline.arrRef spec2 1) : FVec Ideal S1x2 .f32) = shapeCast S1x2 (m ((c : Thread nD τ).loc main_arg6)) shapeCasts_S2_S1x2 := bias_at7 m ρ c
  rw [e0, e1]

/-- The kernel's result is the reference's function of the same arguments. -/
theorem out_eq_result (c : Dev nD) :
    W8 m ρ c (Proc.devRef .tc main_v62) = Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (out_at8 m ρ c).trans ?_
  unfold Spec.result
  rw [biasSoftmax_eq, dense2_eq, dense1_eq]

end Cert.KernelIdeal.Hand

end
-- ==== Proof.RefValue.lean ====
/-
  The reference's run with its result named: after every weakly fair execution the result buffer holds
  `Spec.result` of the seven argument arrays — the softmax of the twice aggregated, twice densely transformed node
  features — and the arguments are unchanged. The run's composed term of host operations is that function spelled out
  with every shared intermediate repeated; the two are the same term.
-/
import proofs.«134711_j5583457485496_2_alg».proof.Proof.RefRun
import proofs.«134711_j5583457485496_2_alg».proof.Proof.HostSpec

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 16384 in
set_option maxHeartbeats 8000000 in
/-- The run's composed term is `Spec.result` of the arguments. -/
theorem res_eq (m : (ℓ : Loc nD τ sig) → Buf (Elt F) ℓ) (c : Dev nD) :
    Cert.ReferenceIdeal.ValueP.res_main_v106 (F := F) m c = Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v106
  rfl

/-- On every device, from any memory with zero counters: every weakly fair execution of the reference terminates with the
    result buffer at `Spec.result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq m c), (h c).2⟩) (Cert.ReferenceIdeal.ValueP.run m ρ)

end Cert.ReferenceIdeal.Hand

end
-- ==== Proof.lean ====
/-
  The certificate of a two-layer graph convolution followed by a row softmax, computed by three pipelined kernels among
  host gather / scatter-add steps, against a plain reference.
  Over the extended reals both programs compute, from an edge list, two feature tables U and X, weights W1, W2 and
  biases b1, b2,
      softmax over each row of   A (relu (A ([U | X] · W1) + b1) · W2) + b2 ,
  where A gathers a table's rows at the edges' sources, scales each by the edge's weight and adds it into the row of the
  edge's target. The kernel differs from the reference in three places only: it multiplies U and X by the two halves of W1
  and adds the products instead of multiplying the joined table by W1 (a sum over 192 inner positions split at 64:
  associativity of addition); it computes the two dense products and the softmax block by block, ten blocks of 5000 rows
  that tile the 50000 nodes; and it reads each bias from a one-row table. None of these needs the inputs to be finite,
  so the precondition is never opened. The frames of the two kernel programs are the generated frame certificates; the
  reference's frame is its run with the result dropped; the idealization rewrote no operation.
-/
import proofs.«134711_j5583457485496_2_alg».proof.Defs
import proofs.«134711_j5583457485496_2_alg».proof.Proof.Gen.Kernel
import proofs.«134711_j5583457485496_2_alg».proof.Proof.Gen.Kernel.Frame
import proofs.«134711_j5583457485496_2_alg».proof.Proof.Gen.KernelIdeal
import proofs.«134711_j5583457485496_2_alg».proof.Proof.Gen.KernelIdeal.Frame
import proofs.«134711_j5583457485496_2_alg».proof.Proof.Gen.ReferenceIdeal
import proofs.«134711_j5583457485496_2_alg».proof.Proof.Gen.Pre_finite_inputs
import proofs.«134711_j5583457485496_2_alg».proof.Proof.KerRun
import proofs.«134711_j5583457485496_2_alg».proof.Proof.KerResult
import proofs.«134711_j5583457485496_2_alg».proof.Proof.RefValue
import Idealize.ShloMosaic.Adequacy
import Idealize.ShloMosaic.Init

noncomputable section

namespace Cert.Proof

open Idealize.ShloMosaic Idealize.SL.Sem

/-- The word-level kernel program runs, faults nowhere and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories that agree on the seven arguments both idealized programs end with the result array at the same function
    of the arguments. -/
theorem algebraic : Cert.algebraic_KernelIdeal_ReferenceIdeal := by
  intro m ρ m' ρ' _ hagree
  refine ⟨fun c => Cert.ReferenceIdeal.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.out_eq_result m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
